-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S2x50000x2000 : S_.BroadcastsInDim S2x50000x2000 (![] : Fin 0 → Fin S2x50000x2000.rank)
  reducesTo_S2x50000x2000_S_d0_1_2 : S2x50000x2000.ReducesTo [0, 1, 2] S_
  h_S_ : 0 < S_.numel
  bcast_S_S2x2000x500 : S_.BroadcastsInDim S2x2000x500 (![] : Fin 0 → Fin S2x2000x500.rank)
  reducesTo_S2x2000x500_S_d0_1_2 : S2x2000x500.ReducesTo [0, 1, 2] S_
  bcast_S_S2x500 : S_.BroadcastsInDim S2x500 (![] : Fin 0 → Fin S2x500.rank)
  reducesTo_S2x500_S_d0_1 : S2x500.ReducesTo [0, 1] S_
  bcast_S_S2x500x128 : S_.BroadcastsInDim S2x500x128 (![] : Fin 0 → Fin S2x500x128.rank)
  reducesTo_S2x500x128_S_d0_1_2 : S2x500x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg20 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg20
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg16 : FVec F S2x64 .f32) (main_arg17 : FVec F S64x64 .f32) (main_arg18 : FVec F S64 .f32) (main_arg19 : FVec F S64x16 .f32) (main_arg20 : FVec F S16 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x16 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x16 .f32) (main_arg20 : FVec F S16 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128x64 .f32 := Host.absf main_arg15
  let main_cst_24 : FVec F S_ .f32 := constant S_ .f32 0x7F800000#32
  let main_v65 : FVec F S2x128x64 .f32 := broadcastInDim S2x128x64 ![] bcast_S_S2x128x64 main_cst_24
  let main_v66 : IVec S2x128x64 1 := cmpf .olt main_v64 main_v65
  let main_c_25 : IVec S_ 1 := constantI S_ 1 1#1
  let main_v67 : IVec S_ 1 := (fun x v => Host.reduce IntOp.andi x v reducesTo_S2x128x64_S_d0_1_2 h_S_) main_v66 main_c_25
  fn_part4 (F := F) main_arg16 main_arg17 main_arg18 main_arg19 main_arg20 main_v63 main_v67

def fn_part2 {F : FTy → Type} [FloatOps F] (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x16 .f32) (main_arg20 : FVec F S16 .f32) (main_v33 : IVec S_ 1) : IVec S_ 1 :=
  let main_v34 : FVec F S2x500x128 .f32 := Host.absf main_arg9
  let main_cst_12 : FVec F S_ .f32 := constant S_ .f32 0x7F800000#32
  let main_v35 : FVec F S2x500x128 .f32 := broadcastInDim S2x500x128 ![] bcast_S_S2x500x128 main_cst_12
  let main_v36 : IVec S2x500x128 1 := cmpf .olt main_v34 main_v35
  let main_c_13 : IVec S_ 1 := constantI S_ 1 1#1
  let main_v37 : IVec S_ 1 := (fun x v => Host.reduce IntOp.andi x v reducesTo_S2x500x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_arg15 main_arg16 main_arg17 main_arg18 main_arg19 main_arg20 main_v48 main_v49 main_v50

def fn_part1 {F : FTy → Type} [FloatOps F] (main_arg6 : FVec F S2x500 .f32) (main_arg7 : FVec F S2x500 .f32) (main_arg8 : FVec F S2x500 .f32) (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x16 .f32) (main_arg20 : FVec F S16 .f32) (main_v13 : IVec S_ 1) (main_v16 : IVec S2x500 1) : IVec S_ 1 :=
  let main_c_5 : IVec S_ 1 := constantI S_ 1 1#1
  let main_v17 : IVec S_ 1 := (fun x v => Host.reduce IntOp.andi x v reducesTo_S2x500_S_d0_1 h_S_) main_v16 main_c_5
  let main_v18 : IVec S_ 1 := andi main_v13 main_v17
  let main_v19 : FVec F S2x500 .f32 := Host.absf main_arg6
  let main_cst_6 : FVec F S_ .f32 := constant S_ .f32 0x7F800000#32
  let main_v20 : FVec F S2x500 .f32 := broadcastInDim S2x500 ![] bcast_S_S2x500 main_cst_6
  let main_v21 : IVec S2x500 1 := cmpf .olt main_v19 main_v20
  let main_c_7 : IVec S_ 1 := constantI S_ 1 1#1
  let main_v22 : IVec S_ 1 := (fun x v => Host.reduce IntOp.andi x v reducesTo_S2x500_S_d0_1 h_S_) main_v21 main_c_7
  let main_v23 : IVec S_ 1 := andi main_v18 main_v22
  let main_v24 : FVec F S2x500 .f32 := Host.absf main_arg7
  let main_cst_8 : FVec F S_ .f32 := constant S_ .f32 0x7F800000#32
  let main_v25 : FVec F S2x500 .f32 := broadcastInDim S2x500 ![] bcast_S_S2x500 main_cst_8
  let main_v26 : IVec S2x500 1 := cmpf .olt main_v24 main_v25
  let main_c_9 : IVec S_ 1 := constantI S_ 1 1#1
  let main_v27 : IVec S_ 1 := (fun x v => Host.reduce IntOp.andi x v reducesTo_S2x500_S_d0_1 h_S_) main_v26 main_c_9
  let main_v28 : IVec S_ 1 := andi main_v23 main_v27
  let main_v29 : FVec F S2x500 .f32 := Host.absf main_arg8
  let main_cst_10 : FVec F S_ .f32 := constant S_ .f32 0x7F800000#32
  let main_v30 : FVec F S2x500 .f32 := broadcastInDim S2x500 ![] bcast_S_S2x500 main_cst_10
  let main_v31 : IVec S2x500 1 := cmpf .olt main_v29 main_v30
  let main_c_11 : IVec S_ 1 := constantI S_ 1 1#1
  let main_v32 : IVec S_ 1 := (fun x v => Host.reduce IntOp.andi x v reducesTo_S2x500_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S2x50000x2000 .f32) (main_arg1 : IVec S1600000 32) (main_arg2 : IVec S1600000 32) (main_arg3 : FVec F S2x2000x500 .f32) (main_arg4 : FVec F S2x500 .f32) (main_arg5 : FVec F S2x500 .f32) (main_arg6 : FVec F S2x500 .f32) (main_arg7 : FVec F S2x500 .f32) (main_arg8 : FVec F S2x500 .f32) (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x16 .f32) (main_arg20 : FVec F S16 .f32) : IVec S_ 1 :=
  let main_v0 : FVec F S2x50000x2000 .f32 := Host.absf main_arg0
  let main_cst : FVec F S_ .f32 := constant S_ .f32 0x7F800000#32
  let main_v1 : FVec F S2x50000x2000 .f32 := broadcastInDim S2x50000x2000 ![] bcast_S_S2x50000x2000 main_cst
  let main_v2 : IVec S2x50000x2000 1 := cmpf .olt main_v0 main_v1
  let main_c : IVec S_ 1 := constantI S_ 1 1#1
  let main_v3 : IVec S_ 1 := (fun x v => Host.reduce IntOp.andi x v reducesTo_S2x50000x2000_S_d0_1_2 h_S_) main_v2 main_c
  let main_v4 : FVec F S2x2000x500 .f32 := Host.absf main_arg3
  let main_cst_0 : FVec F S_ .f32 := constant S_ .f32 0x7F800000#32
  let main_v5 : FVec F S2x2000x500 .f32 := broadcastInDim S2x2000x500 ![] bcast_S_S2x2000x500 main_cst_0
  let main_v6 : IVec S2x2000x500 1 := cmpf .olt main_v4 main_v5
  let main_c_1 : IVec S_ 1 := constantI S_ 1 1#1
  let main_v7 : IVec S_ 1 := (fun x v => Host.reduce IntOp.andi x v reducesTo_S2x2000x500_S_d0_1_2 h_S_) main_v6 main_c_1
  let main_v8 : IVec S_ 1 := andi main_v3 main_v7
  let main_v9 : FVec F S2x500 .f32 := Host.absf main_arg4
  let main_cst_2 : FVec F S_ .f32 := constant S_ .f32 0x7F800000#32
  let main_v10 : FVec F S2x500 .f32 := broadcastInDim S2x500 ![] bcast_S_S2x500 main_cst_2
  let main_v11 : IVec S2x500 1 := cmpf .olt main_v9 main_v10
  let main_c_3 : IVec S_ 1 := constantI S_ 1 1#1
  let main_v12 : IVec S_ 1 := (fun x v => Host.reduce IntOp.andi x v reducesTo_S2x500_S_d0_1 h_S_) main_v11 main_c_3
  let main_v13 : IVec S_ 1 := andi main_v8 main_v12
  let main_v14 : FVec F S2x500 .f32 := Host.absf main_arg5
  let main_cst_4 : FVec F S_ .f32 := constant S_ .f32 0x7F800000#32
  let main_v15 : FVec F S2x500 .f32 := broadcastInDim S2x500 ![] bcast_S_S2x500 main_cst_4
  let main_v16 : IVec S2x500 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000x64 : Shape := ⟨2, ![50000, 64]⟩
abbrev S2x400x2000 : Shape := ⟨3, ![2, 400, 2000]⟩
abbrev S400x64 : Shape := ⟨2, ![400, 64]⟩
abbrev S1x400x2000 : Shape := ⟨3, ![1, 400, 2000]⟩
abbrev S400x2000 : Shape := ⟨2, ![400, 2000]⟩
abbrev S1x2000x500 : Shape := ⟨3, ![1, 2000, 500]⟩
abbrev S2000x500 : Shape := ⟨2, ![2000, 500]⟩
abbrev S400x500 : Shape := ⟨2, ![400, 500]⟩
abbrev S1x500 : Shape := ⟨2, ![1, 500]⟩
abbrev S500 : Shape := ⟨1, ![500]⟩
abbrev S1x500x128 : Shape := ⟨3, ![1, 500, 128]⟩
abbrev S500x128 : Shape := ⟨2, ![500, 128]⟩
abbrev S400x128 : Shape := ⟨2, ![400, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S50000x16 : Shape := ⟨2, ![50000, 16]⟩
abbrev S1x16 : Shape := ⟨2, ![1, 16]⟩

abbrev nBuf : Space → Nat
  | .hbm => 89
  | .vmem => 18
  | .smem => 0
  | _ => 0

abbrev bufTy : (tb : Table) → Fin (tcTables nBuf tb) → BufTy
  | .hbm, ⟨0, _⟩ => ⟨S2x50000x2000, .f32⟩
  | .hbm, ⟨1, _⟩ => ⟨S1600000, .i32⟩
  | .hbm, ⟨2, _⟩ => ⟨S1600000, .i32⟩
  | .hbm, ⟨3, _⟩ => ⟨S2x2000x500, .f32⟩
  | .hbm, ⟨4, _⟩ => ⟨S2x500, .f32⟩
  | .hbm, ⟨5, _⟩ => ⟨S2x500, .f32⟩
  | .hbm, ⟨6, _⟩ => ⟨S2x500, .f32⟩
  | .hbm, ⟨7, _⟩ => ⟨S2x500, .f32⟩
  | .hbm, ⟨8, _⟩ => ⟨S2x500, .f32⟩
  | .hbm, ⟨9, _⟩ => ⟨S2x500x128, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x128x64, .f32⟩
  | .hbm, ⟨16, _⟩ => ⟨S2x64, .f32⟩
  | .hbm, ⟨17, _⟩ => ⟨S64x64, .f32⟩
  | .hbm, ⟨18, _⟩ => ⟨S64, .f32⟩
  | .hbm, ⟨19, _⟩ => ⟨S64x16, .f32⟩
  | .hbm, ⟨20, _⟩ => ⟨S16, .f32⟩
  | .hbm, ⟨21, _⟩ => ⟨S50000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S50000, .f32⟩
  | .hbm, ⟨26, _⟩ => ⟨S1600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S50000x64, .f32⟩
  | .hbm, ⟨57, _⟩ => ⟨S1600000x1, .i32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S50000x64, .f32⟩
  | .hbm, ⟨81, _⟩ => ⟨S1600000x1, .i32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x16, .f32⟩
  | .hbm, ⟨86, _⟩ => ⟨S1x16, .f32⟩
  | .hbm, ⟨87, _⟩ => ⟨S50000x16, .f32⟩
  | .hbm, ⟨88, _⟩ => ⟨S50000x16, .f32⟩
  | .local _ .vmem, ⟨0, _⟩ => ⟨S2x400x2000, .f32⟩
  | .local _ .vmem, ⟨1, _⟩ => ⟨S2x400x2000, .f32⟩
  | .local _ .vmem, ⟨2, _⟩ => ⟨S2x2000x500, .f32⟩
  | .local _ .vmem, ⟨3, _⟩ => ⟨S2x500, .f32⟩
  | .local _ .vmem, ⟨4, _⟩ => ⟨S2x500, .f32⟩
  | .local _ .vmem, ⟨5, _⟩ => ⟨S2x500, .f32⟩
  | .local _ .vmem, ⟨6, _⟩ => ⟨S2x500, .f32⟩
  | .local _ .vmem, ⟨7, _⟩ => ⟨S2x500, .f32⟩
  | .local _ .vmem, ⟨8, _⟩ => ⟨S2x500x128, .f32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S2x128x64, .f32⟩
  | .local _ .vmem, ⟨15, _⟩ => ⟨S2x64, .f32⟩
  | .local _ .vmem, ⟨16, _⟩ => ⟨S400x64, .f32⟩
  | .local _ .vmem, ⟨17, _⟩ => ⟨S400x64, .f32⟩
  | _, _ => ⟨S2x50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call2_cst : Ref sig .tc := ⟨.hbm, 65, rfl⟩
abbrev main_call2_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x400x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2000x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x500x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S2x400x2000_S1x400x2000_0_0_0 : ∀ a, (![0, 0, 0] : Fin 3 → Nat) a + S1x400x2000.size a ≤ S2x400x2000.size a
  h_S1x400x2000 : 0 < S1x400x2000.numel
  shapeCasts_S1x400x2000_S400x2000 : S1x400x2000.ShapeCasts S400x2000
  bitsLt_bf16_f32 : FTy.bits .bf16 < FTy.bits .f32
  inb_S2x2000x500_S1x2000x500_0_0_0 : ∀ a, (![0, 0, 0] : Fin 3 → Nat) a + S1x2000x500.size a ≤ S2x2000x500.size a
  h_S1x2000x500 : 0 < S1x2000x500.numel
  shapeCasts_S1x2000x500_S2000x500 : S1x2000x500.ShapeCasts S2000x500
  inb_S2x500_S1x500_0_0 : ∀ a, (![0, 0] : Fin 2 → Nat) a + S1x500.size a ≤ S2x500.size a
  h_S1x500 : 0 < S1x500.numel
  shapeCasts_S1x500_S500 : S1x500.ShapeCasts S500
  shapeCasts_S500_S1x500 : S500.ShapeCasts S1x500
  broadcasts_S1x500_S400x500 : S1x500.Broadcasts S400x500
  inb_S2x500x128_S1x500x128_0_0_0 : ∀ a, (![0, 0, 0] : Fin 3 → Nat) a + S1x500x128.size a ≤ S2x500x128.size a
  h_S1x500x128 : 0 < S1x500x128.numel
  shapeCasts_S1x500x128_S500x128 : S1x500x128.ShapeCasts S500x128
  inb_S2x128_S1x128_0_0 : ∀ a, (![0, 0] : Fin 2 → Nat) a + S1x128.size a ≤ S2x128.size a
  h_S1x128 : 0 < S1x128.numel
  shapeCasts_S1x128_S128 : S1x128.ShapeCasts S128
  shapeCasts_S128_S1x128 : S128.ShapeCasts S1x128
  broadcasts_S1x128_S400x128 : S1x128.Broadcasts S400x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S400x64 : S1x64.Broadcasts S400x64
  inb_S2x400x2000_S1x400x2000_1_0_0 : ∀ a, (![1, 0, 0] : Fin 3 → Nat) a + S1x400x2000.size a ≤ S2x400x2000.size a
  inb_S2x2000x500_S1x2000x500_1_0_0 : ∀ a, (![1, 0, 0] : Fin 3 → Nat) a + S1x2000x500.size a ≤ S2x2000x500.size a
  inb_S2x500_S1x500_1_0 : ∀ a, (![1, 0] : Fin 2 → Nat) a + S1x500.size a ≤ S2x500.size a
  inb_S2x500x128_S1x500x128_1_0_0 : ∀ a, (![1, 0, 0] : Fin 3 → Nat) a + S1x500x128.size a ≤ S2x500x128.size a
  inb_S2x128_S1x128_1_0 : ∀ a, (![1, 0] : Fin 2 → Nat) a + S1x128.size a ≤ S2x128.size a
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S400x64_S400x64_0_0 : ∀ a, (![0, 0] : Fin 2 → Nat) a + S400x64.size a ≤ S400x64.size a
  h_S400x64 : 0 < S400x64.numel
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S400x2000_S2000x500_S400x500_1_0_0_1_n_n_wf : DotDims.WF S400x2000 S2000x500 S400x500 [1] [0] [0] [1] [] []
  dot_S400x500_S500x128_S400x128_1_0_0_1_n_n_wf : DotDims.WF S400x500 S500x128 S400x128 [1] [0] [0] [1] [] []
  dot_S400x128_S128x64_S400x64_1_0_0_1_n_n_wf : DotDims.WF S400x128 S128x64 S400x64 [1] [0] [0] [1] [] []
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x400x2000.size a ≤ S2x50000x2000.size a
  hwx0_0 : ∀ i : grid0.Coords, EltTy.bits .f32 = 32 ∨ (Rect.block (s := S2x50000x2000) S2x400x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2000x500.size a ≤ S2x2000x500.size a
  hwx0_1 : ∀ i : grid0.Coords, EltTy.bits .f32 = 32 ∨ (Rect.block (s := S2x2000x500) S2x2000x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x500.size a ≤ S2x500.size a
  hwx0_2 : ∀ i : grid0.Coords, EltTy.bits .f32 = 32 ∨ (Rect.block (s := S2x500) S2x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x500.size a ≤ S2x500.size a
  hwx0_3 : ∀ i : grid0.Coords, EltTy.bits .f32 = 32 ∨ (Rect.block (s := S2x500) S2x500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x500.size a ≤ S2x500.size a
  hwx0_4 : ∀ i : grid0.Coords, EltTy.bits .f32 = 32 ∨ (Rect.block (s := S2x500) S2x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x500.size a ≤ S2x500.size a
  hwx0_5 : ∀ i : grid0.Coords, EltTy.bits .f32 = 32 ∨ (Rect.block (s := S2x500) S2x500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x500.size a ≤ S2x500.size a
  hwx0_6 : ∀ i : grid0.Coords, EltTy.bits .f32 = 32 ∨ (Rect.block (s := S2x500) S2x500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x500x128.size a ≤ S2x500x128.size a
  hwx0_7 : ∀ i : grid0.Coords, EltTy.bits .f32 = 32 ∨ (Rect.block (s := S2x500x128) S2x500x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128.size a ≤ S2x128.size a
  hwx0_8 : ∀ i : grid0.Coords, EltTy.bits .f32 = 32 ∨ (Rect.block (s := S2x128) S2x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x128.size a ≤ S2x128.size a
  hwx0_11 : ∀ i : grid0.Coords, EltTy.bits .f32 = 32 ∨ (Rect.block (s := S2x128) S2x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x128.size a ≤ S2x128.size a
  hwx0_12 : ∀ i : grid0.Coords, EltTy.bits .f32 = 32 ∨ (Rect.block (s := S2x128) S2x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x128x64.size a ≤ S2x128x64.size a
  hwx0_13 : ∀ i : grid0.Coords, EltTy.bits .f32 = 32 ∨ (Rect.block (s := S2x128x64) S2x128x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x64.size a ≤ S2x64.size a
  hwx0_14 : ∀ i : grid0.Coords, EltTy.bits .f32 = 32 ∨ (Rect.block (s := S2x64) S2x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S400x64.size a ≤ S50000x64.size a
  hwx0_15 : ∀ i : grid0.Coords, EltTy.bits .f32 = 32 ∨ (Rect.block (s := S50000x64) S400x64.size (cc0_transform_15 i) (hinb0_15 i)).WholeWords (EltTy.packing .f32)

variable [Facts₀]

def dot_S400x2000_S2000x500_S400x500_1_0_0_1_n_n : DotDims S400x2000 S2000x500 S400x500 where
  lhsContracting := [1]
  rhsContracting := [0]
  lhsNonContracting := [0]
  rhsNonContracting := [1]
  lhsBatch := []
  rhsBatch := []
  wf := dot_S400x2000_S2000x500_S400x500_1_0_0_1_n_n_wf
def dot_S400x500_S500x128_S400x128_1_0_0_1_n_n : DotDims S400x500 S500x128 S400x128 where
  lhsContracting := [1]
  rhsContracting := [0]
  lhsNonContracting := [0]
  rhsNonContracting := [1]
  lhsBatch := []
  rhsBatch := []
  wf := dot_S400x500_S500x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

abbrev win0_0 : Pipeline.Window sig grid0 :=
  Pipeline.Window.ofSpec (Memref.whole main_arg0) S2x400x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x2000x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S2x500x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S2x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S2x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S2x128x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S2x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S400x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S2x50000x500 : Shape := ⟨3, ![2, 50000, 500]⟩
abbrev S2x1x500 : Shape := ⟨3, ![2, 1, 500]⟩
abbrev S_ : Shape := ⟨0, ![]⟩
abbrev S2x50000x128 : Shape := ⟨3, ![2, 50000, 128]⟩
abbrev S2x1x128 : Shape := ⟨3, ![2, 1, 128]⟩
abbrev S2x50000x64 : Shape := ⟨3, ![2, 50000, 64]⟩
abbrev S2x1x64 : Shape := ⟨3, ![2, 1, 64]⟩
abbrev S50000x64 : Shape := ⟨2, ![50000, 64]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩
abbrev S50000x16 : Shape := ⟨2, ![50000, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S2x50000x2000, .f32⟩
  | 1 => ⟨S1600000, .i32⟩
  | 2 => ⟨S1600000, .i32⟩
  | 3 => ⟨S2x2000x500, .f32⟩
  | 4 => ⟨S2x500, .f32⟩
  | 5 => ⟨S2x500, .f32⟩
  | 6 => ⟨S2x500, .f32⟩
  | 7 => ⟨S2x500, .f32⟩
  | 8 => ⟨S2x500, .f32⟩
  | 9 => ⟨S2x500x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S2x128x64, .f32⟩
  | 16 => ⟨S2x64, .f32⟩
  | 17 => ⟨S64x64, .f32⟩
  | 18 => ⟨S64, .f32⟩
  | 19 => ⟨S64x16, .f32⟩
  | 20 => ⟨S16, .f32⟩
  | 21 => ⟨S2x50000x500, .f32⟩
  | 22 => ⟨S2x1x500, .f32⟩
  | 23 => ⟨S2x50000x500, .f32⟩
  | 24 => ⟨S2x50000x500, .f32⟩
  | 25 => ⟨S2x1x500, .f32⟩
  | 26 => ⟨S2x50000x500, .f32⟩
  | 27 => ⟨S2x50000x500, .f32⟩
  | 28 => ⟨S2x1x500, .f32⟩
  | 29 => ⟨S_, .f32⟩
  | 30 => ⟨S2x1x500, .f32⟩
  | 31 => ⟨S2x1x500, .f32⟩
  | 32 => ⟨S2x1x500, .f32⟩
  | 33 => ⟨S2x50000x500, .f32⟩
  | 34 => ⟨S2x50000x500, .f32⟩
  | 35 => ⟨S2x1x500, .f32⟩
  | 36 => ⟨S2x50000x500, .f32⟩
  | 37 => ⟨S2x50000x500, .f32⟩
  | 38 => ⟨S2x1x500, .f32⟩
  | 39 => ⟨S2x50000x500, .f32⟩
  | 40 => ⟨S2x50000x500, .f32⟩
  | 41 => ⟨S2x50000x128, .f32⟩
  | 42 => ⟨S2x1x128, .f32⟩
  | 43 => ⟨S2x50000x128, .f32⟩
  | 44 => ⟨S2x50000x128, .f32⟩
  | 45 => ⟨S2x1x128, .f32⟩
  | 46 => ⟨S2x50000x128, .f32⟩
  | 47 => ⟨S2x50000x128, .f32⟩
  | 48 => ⟨S2x1x128, .f32⟩
  | 49 => ⟨S_, .f32⟩
  | 50 => ⟨S2x1x128, .f32⟩
  | 51 => ⟨S2x1x128, .f32⟩
  | 52 => ⟨S2x1x128, .f32⟩
  | 53 => ⟨S2x50000x128, .f32⟩
  | 54 => ⟨S2x50000x128, .f32⟩
  | 55 => ⟨S2x1x128, .f32⟩
  | 56 => ⟨S2x50000x128, .f32⟩
  | 57 => ⟨S2x50000x128, .f32⟩
  | 58 => ⟨S2x1x128, .f32⟩
  | 59 => ⟨S2x50000x128, .f32⟩
  | 60 => ⟨S2x50000x128, .f32⟩
  | 61 => ⟨S2x50000x64, .f32⟩
  | 62 => ⟨S2x1x64, .f32⟩
  | 63 => ⟨S2x50000x64, .f32⟩
  | 64 => ⟨S2x50000x64, .f32⟩
  | 65 => ⟨S_, .f32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S1600000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S50000, .f32⟩
  | 78 => ⟨S1600000x1, .i32⟩
  | 79 => ⟨S50000, .f32⟩
  | 80 => ⟨S_, .f32⟩
  | 81 => ⟨S_, .f32⟩
  | 82 => ⟨S50000, .f32⟩
  | 83 => ⟨S50000, .f32⟩
  | 84 => ⟨S50000, .f32⟩
  | 85 => ⟨S50000x1, .f32⟩
  | 86 => ⟨S_, .f32⟩
  | 87 => ⟨S_, .f32⟩
  | 88 => ⟨S50000, .f32⟩
  | 89 => ⟨S50000, .f32⟩
  | 90 => ⟨S50000, .f32⟩
  | 91 => ⟨S50000x1, .f32⟩
  | 92 => ⟨S50000x64, .f32⟩
  | 93 => ⟨S50000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .f32⟩
  | 104 => ⟨S50000x64, .f32⟩
  | 105 => ⟨S1600000x1, .i32⟩
  | 106 => ⟨S50000x64, .f32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S_, .f32⟩
  | _ => ⟨S2x50000x2000, .f32⟩

abbrev hbmTy0_1 (i : Nat) : BufTy := match i % 128 with
  | 0 => ⟨S50000x64, .f32⟩
  | 1 => ⟨S1600000x1, .i32⟩
  | 2 => ⟨S50000x64, .f32⟩
  | 3 => ⟨S50000x64, .f32⟩
  | 4 => ⟨S50000x64, .f32⟩
  | 5 => ⟨S50000x16, .f32⟩
  | 6 => ⟨S1x16, .f32⟩
  | 7 => ⟨S50000x16, .f32⟩
  | 8 => ⟨S50000x16, .f32⟩
  | _ => ⟨S2x50000x2000, .f32⟩

abbrev hbmTy (i : Nat) : BufTy := match i / 128 with
  | 0 => hbmTy0_0 i
  | 1 => hbmTy0_1 i
  | _ => ⟨S2x50000x2000, .f32⟩

abbrev bufTy : (tb : Table) → Fin (tcTables nBuf tb) → BufTy
  | .hbm, ⟨i, _⟩ => hbmTy i
  | _, _ => ⟨S2x50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_1 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_call0_v0 : Ref sig .tc := ⟨.hbm, 81, rfl⟩
abbrev main_call0_v1 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_call1_v0 : Ref sig .tc := ⟨.hbm, 87, rfl⟩
abbrev main_call1_v1 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c : Ref sig .tc := ⟨.hbm, 94, rfl⟩
abbrev main_v60 : Ref sig .tc := ⟨.hbm, 95, rfl⟩
abbrev main_v61 : Ref sig .tc := ⟨.hbm, 96, rfl⟩
abbrev main_c_8 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_9 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call2_cst : Ref sig .tc := ⟨.hbm, 113, rfl⟩
abbrev main_call2_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_10 : Ref sig .tc := ⟨.hbm, 118, rfl⟩
abbrev main_v79 : Ref sig .tc := ⟨.hbm, 119, rfl⟩
abbrev main_v80 : Ref sig .tc := ⟨.hbm, 120, rfl⟩
abbrev main_c_11 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_12 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  bcast_S2x500_S2x1x500_0_2 : S2x500.BroadcastsInDim S2x1x500 (![0, 2] : Fin 2 → Fin S2x1x500.rank)
  bcast_S2x1x500_S2x50000x500_0_1_2 : S2x1x500.BroadcastsInDim S2x50000x500 (![0, 1, 2] : Fin 3 → Fin S2x50000x500.rank)
  bcast_S_S2x1x500 : S_.BroadcastsInDim S2x1x500 (![] : Fin 0 → Fin S2x1x500.rank)
  bcast_S2x128_S2x1x128_0_2 : S2x128.BroadcastsInDim S2x1x128 (![0, 2] : Fin 2 → Fin S2x1x128.rank)
  bcast_S2x1x128_S2x50000x128_0_1_2 : S2x1x128.BroadcastsInDim S2x50000x128 (![0, 1, 2] : Fin 3 → Fin S2x50000x128.rank)
  bcast_S_S2x1x128 : S_.BroadcastsInDim S2x1x128 (![] : Fin 0 → Fin S2x1x128.rank)
  bcast_S2x64_S2x1x64_0_2 : S2x64.BroadcastsInDim S2x1x64 (![0, 2] : Fin 2 → Fin S2x1x64.rank)
  bcast_S2x1x64_S2x50000x64_0_1_2 : S2x1x64.BroadcastsInDim S2x50000x64 (![0, 1, 2] : Fin 3 → Fin S2x50000x64.rank)
  reducesTo_S2x50000x64_S50000x64_d0 : S2x50000x64.ReducesTo [0] S50000x64
  h_S_ : 0 < S_.numel
  bcast_S_S50000x64 : S_.BroadcastsInDim S50000x64 (![] : Fin 0 → Fin S50000x64.rank)
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S2x50000x2000_S2x2000x500_S2x50000x500_2_1_1_2_0_0_wf : DotDims.WF S2x50000x2000 S2x2000x500 S2x50000x500 [2] [1] [1] [2] [0] [0]
  dot_S2x50000x500_S2x500x128_S2x50000x128_2_1_1_2_0_0_wf : DotDims.WF S2x50000x500 S2x500x128 S2x50000x128 [2] [1] [1] [2] [0] [0]
  dot_S2x50000x128_S2x128x64_S2x50000x64_2_1_1_2_0_0_wf : DotDims.WF S2x50000x128 S2x128x64 S2x50000x64 [2] [1] [1] [2] [0] [0]
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []

variable [Facts₀]

def dot_S2x50000x2000_S2x2000x500_S2x50000x500_2_1_1_2_0_0 : DotDims S2x50000x2000 S2x2000x500 S2x50000x500 where
  lhsContracting := [2]
  rhsContracting := [1]
  lhsNonContracting := [1]
  rhsNonContracting := [2]
  lhsBatch := [0]
  rhsBatch := [0]
  wf := dot_S2x50000x2000_S2x2000x500_S2x50000x500_2_1_1_2_0_0_wf
def dot_S2x50000x500_S2x500x128_S2x50000x128_2_1_1_2_0_0 : DotDims S2x50000x500 S2x500x128 S2x50000x128 where
  lhsContracting := [2]
  rhsContracting := [1]
  lhsNonContracting := [1]
  rhsNonContracting := [2]
  lhsBatch := [0]
  rhsBatch := [0]
  wf := dot_S2x50000x500_S2x500x128_S2x50000x128_2_1_1_2_0_0_wf
def dot_S2x50000x128_S2x128x64_S2x50000x64_2_1_1_2_0_0 : DotDims S2x50000x128 S2x128x64 S2x50000x64 where
  lhsContracting := [2]
  rhsContracting := [1]
  lhsNonContracting := [1]
  rhsNonContracting := [2]
  lhsBatch := [0]
  rhsBatch := [0]
  wf := dot_S2x50000x128_S2x128x64_S2x50000x64_2_1_1_2_0_0_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.KMain.lean ====
/-
  The program around its one region. The entry point is the encoder region followed by the graph-convolution
  lines: nothing runs before the region, so the region finds every buffer as launched; the lines after it read
  the region's result and the edge lists and write only buffers of their own. Here: the region-entry contents,
  the lines after the region (they stay within the unscoped TensorCore buffers, allocate nothing, and write no
  array the region stages), each window's block at a grid point (125 points; the node axis cut into tiles of 400
  rows, every weight window the whole array at every point), and the frame claim's post read off a frame run.
-/
import proofs.«181022_j77506979823983_1_alg».proof.Proof.Gen.Kernel.Launch
import proofs.«181022_j77506979823983_1_alg».proof.Proof.Gen.Kernel.Skeleton
import proofs.«181022_j77506979823983_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch. -/
abbrev tailOps : List (List (HloOp τ sig (Elt F))) := [hostOps1, hostOps1_1, hostOps1_2, hostOps1_3, hostOps1_4, hostOps1_5, hostOps1_6]

/-- Core `c`'s TensorCore buffer contents when the region is entered, as a valuation: as launched (no line runs before the region). -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
/-- The entry point reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [] tailOps (by simp only [List.Forall]) (by simp only [List.Forall]) main_chain

/-- The later lines touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 4000000 in
/-- No line of this stretch writes an array the region stages: each writes only its own result buffer. -/
theorem keeps_hostOps1 : ∀ op ∈ (hostOps1 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_1 : ∀ op ∈ (hostOps1_1 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_2 : ∀ op ∈ (hostOps1_2 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_3 : ∀ op ∈ (hostOps1_3 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_4 : ∀ op ∈ (hostOps1_4 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_5 : ∀ op ∈ (hostOps1_5 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_6 : ∀ op ∈ (hostOps1_6 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
/-- The later lines write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl

set_option maxHeartbeats 4000000 in
/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 4000000 in
/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 4000000 in
/-- No later line writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 4000000 in
/-- No later line writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
set_option maxHeartbeats 4000000 in
/-- No later line writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) tailOps c main_arg19 = m ((c : Thread nD τ).loc main_arg19) := by
  unfold Pipeline.afterTail₀
  rw [StableHlo.after_of_forall_not_mem (b := Proc.devRef .tc main_arg19) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
set_option maxHeartbeats 4000000 in
/-- No later line writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) tailOps c main_arg20 = m ((c : Thread nD τ).loc main_arg20) := by
  unfold Pipeline.afterTail₀
  rw [StableHlo.after_of_forall_not_mem (b := Proc.devRef .tc main_arg20) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not: where it is not
    fetched the block index has not moved. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not: where it is not
    fetched the block index has not moved. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not: where it is not
    fetched the block index has not moved. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The post every frame run ends in: each array of the region at what the proof data compute, every other unscoped
    buffer as the later lines leave it. -/
abbrev Post (dats : (p : Fin 1) → (c : Dev nD) → Dat τ (Elt F) Unit ℕ (UR sig nD τ) ℕ (cfgs p) c) :=
  Pipeline.FramePost cfgs dats 0 (Pipeline.afterTail₀ cfgs dats 0 (V0 m) tailOps)

set_option maxHeartbeats 4000000 in
/-- The frame from a frame run: a staged input array ends at its entry contents, which are the launch contents; an
    argument no window stages is written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Post m dats)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).1 10).trans (((dats 0 c).arrAt_in 10 rfl _).trans ((hA c 10).trans (V_main_arg12 m c))),
      ((h c).1 11).trans (((dats 0 c).arrAt_in 11 rfl _).trans ((hA c 11).trans (V_main_arg13 m c))),
      ((h c).1 12).trans (((dats 0 c).arrAt_in 12 rfl _).trans ((hA c 12).trans (V_main_arg14 m c))),
      ((h c).1 13).trans (((dats 0 c).arrAt_in 13 rfl _).trans ((hA c 13).trans (V_main_arg15 m c))),
      ((h c).1 14).trans (((dats 0 c).arrAt_in 14 rfl _).trans ((hA c 14).trans (V_main_arg16 m c))),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c))⟩) h

end Cert.Kernel.Enc

end
-- ==== Proof.KBody.lean ====
/-
  The encoder body at one grid point, as a function of the sixteen windows' blocks. The body reads, for each of
  the two modalities, the modality's slab of every input block, runs the three layers (each a matrix product into
  a zero accumulator plus a bias row; the first two followed by the batch normalisation), adds the decoded tile to
  an accumulator that starts at zero, and stores the accumulator times 0.5 over the whole output tile. Here: the
  slabs' rectangles, what the output tile holds after the body as one term of the input blocks, and the body's
  triple: on whole staging buffers holding the input blocks it terminates, leaves them as they were, and leaves the
  output buffer at that term.
-/
import proofs.«181022_j77506979823983_1_alg».proof.Proof.KMain

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

abbrev rx_0 : Rect S2x400x2000 := Rect.unit (s := S2x400x2000) ![0, 0, 0] S1x400x2000.size inb_S2x400x2000_S1x400x2000_0_0_0
abbrev rw1_0 : Rect S2x2000x500 := Rect.unit (s := S2x2000x500) ![0, 0, 0] S1x2000x500.size inb_S2x2000x500_S1x2000x500_0_0_0
abbrev rh_0 : Rect S2x500 := Rect.unit (s := S2x500) ![0, 0] S1x500.size inb_S2x500_S1x500_0_0
abbrev rw2_0 : Rect S2x500x128 := Rect.unit (s := S2x500x128) ![0, 0, 0] S1x500x128.size inb_S2x500x128_S1x500x128_0_0_0
abbrev rl_0 : Rect S2x128 := Rect.unit (s := S2x128) ![0, 0] S1x128.size inb_S2x128_S1x128_0_0
abbrev rwd_0 : Rect S2x128x64 := Rect.unit (s := S2x128x64) ![0, 0, 0] S1x128x64.size inb_S2x128x64_S1x128x64_0_0_0
abbrev rd_0 : Rect S2x64 := Rect.unit (s := S2x64) ![0, 0] S1x64.size inb_S2x64_S1x64_0_0
abbrev rx_1 : Rect S2x400x2000 := Rect.unit (s := S2x400x2000) ![1, 0, 0] S1x400x2000.size inb_S2x400x2000_S1x400x2000_1_0_0
abbrev rw1_1 : Rect S2x2000x500 := Rect.unit (s := S2x2000x500) ![1, 0, 0] S1x2000x500.size inb_S2x2000x500_S1x2000x500_1_0_0
abbrev rh_1 : Rect S2x500 := Rect.unit (s := S2x500) ![1, 0] S1x500.size inb_S2x500_S1x500_1_0
abbrev rw2_1 : Rect S2x500x128 := Rect.unit (s := S2x500x128) ![1, 0, 0] S1x500x128.size inb_S2x500x128_S1x500x128_1_0_0
abbrev rl_1 : Rect S2x128 := Rect.unit (s := S2x128) ![1, 0] S1x128.size inb_S2x128_S1x128_1_0
abbrev rwd_1 : Rect S2x128x64 := Rect.unit (s := S2x128x64) ![1, 0, 0] S1x128x64.size inb_S2x128x64_S1x128x64_1_0_0
abbrev rd_1 : Rect S2x64 := Rect.unit (s := S2x64) ![1, 0] S1x64.size inb_S2x64_S1x64_1_0
abbrev rout : Rect S400x64 := Rect.unit (s := S400x64) ![0, 0] S400x64.size inb_S400x64_S400x64_0_0

/-! ## What the body leaves in the output window's buffer -/

/-- The accumulator after modality 0: zero plus the modality's decoded tile. -/
def acc0 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : FVec F S400x64 .f32 :=
  k0_pay5 (k0_pay2 (F := F))
    (k0_pay4 (k0_pay3 (View.ld x0 rx_0) (View.ld x1 rw1_0) (View.ld x2 rh_0) (View.ld x5 rh_0) (View.ld x6 rh_0) (View.ld x3 rh_0) (View.ld x4 rh_0))
      (View.ld x7 rw2_0) (View.ld x8 rl_0) (View.ld x11 rl_0) (View.ld x12 rl_0) (View.ld x9 rl_0) (View.ld x10 rl_0) (View.ld x13 rwd_0) (View.ld x14 rd_0))

/-- The accumulator after modality 1. -/
def acc1 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : FVec F S400x64 .f32 :=
  k0_pay8 (acc0 x0 x1 x2 x3 x4 x5 x6 x7 x8 x9 x10 x11 x12 x13 x14)
    (k0_pay6 (View.ld x0 rx_1) (View.ld x1 rw1_1) (View.ld x2 rh_1) (View.ld x5 rh_1) (View.ld x6 rh_1) (View.ld x3 rh_1) (View.ld x4 rh_1))
    (k0_pay7 (View.ld x7 rw2_1)) (View.ld x8 rl_1) (View.ld x11 rl_1) (View.ld x12 rl_1) (View.ld x9 rl_1) (View.ld x10 rl_1) (View.ld x13 rwd_1) (View.ld x14 rd_1)

/-- The output window's staging buffer after the body: its one store, over the whole tile, of the accumulator times 0.5. -/
def out0_15 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : Vec F S400x64 .f32 :=
  View.canon [⟨rout, k0_pay1 (acc1 x0 x1 x2 x3 x4 x5 x6 x7 x8 x9 x10 x11 x12 x13 x14) (Scalar.ofBits .f32 0x3F000000#32)⟩]

/-- The one store covers the tile. -/
theorem cover0_15 (p0 : Vec F S400x64 .f32) (y : S400x64.Idx) :
    ∃ pc ∈ ([⟨rout, p0⟩] : List (View.Piece (Elt F) S400x64 .f32)), y ∈ pc.1.set :=
  View.cover_of_tiled [⟨rout, p0⟩] S400x64.size (by rfl) y

/-! ## The body's triple -/

set_option maxHeartbeats 4000000 in
/-- The body on whole staging memrefs, the inputs' at read contents `xW` and the output's at anything, runs to the
    continuation holding the inputs' as they were and the output's at `out0_15` of the inputs'. -/
theorem sound_kernel (c : Dev nD) (E : Set ℕ) (i : grid0.Coords) (arg1 : Memref sig .tc .vmem S2x400x2000 .f32) (harg1 : arg1.IsWhole) (arg2 : Memref sig .tc .vmem S2x2000x500 .f32) (harg2 : arg2.IsWhole) (arg3 : Memref sig .tc .vmem S2x500 .f32) (harg3 : arg3.IsWhole) (arg4 : Memref sig .tc .vmem S2x500 .f32) (harg4 : arg4.IsWhole) (arg5 : Memref sig .tc .vmem S2x500 .f32) (harg5 : arg5.IsWhole) (arg6 : Memref sig .tc .vmem S2x500 .f32) (harg6 : arg6.IsWhole) (arg7 : Memref sig .tc .vmem S2x500 .f32) (harg7 : arg7.IsWhole) (arg8 : Memref sig .tc .vmem S2x500x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128x64 .f32) (harg14 : arg14.IsWhole) (arg15 : Memref sig .tc .vmem S2x64 .f32) (harg15 : arg15.IsWhole) (arg16 : Memref sig .tc .vmem S400x64 .f32) (harg16 : arg16.IsWhole)
    (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

end Cert.Kernel.Enc

end
-- ==== Proof.KRun.lean ====
/-
  The run of the whole entry point. The proof data of the region on each core: every input window's buffer holds the
  window's block of the argument array at every grid point (the node tile of 400 rows for the features, the whole
  array for every weight), the output window's buffer holds, after the body at point `t`, the body's term of those
  blocks, and is written back at every point. With the body's triple at every point this gives the frame run: every
  weakly fair execution terminates without a fault, the region's arrays end at what the proof data compute, and every
  other buffer as the graph-convolution lines leave it; the frame claim follows.
-/
import proofs.«181022_j77506979823983_1_alg».proof.Proof.KBody

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1600000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- From any memory with zero counters every weakly fair execution of the entry point terminates, every array of the
    region at what the proof data compute and every other unscoped buffer as the later lines leave it. -/
theorem run_main : θ_run defs (onTc (τ := τ) (main (F := F))) (s₀ m ρ) (Post m (dats m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.Enc

end
-- ==== Proof.KIMain.lean ====
/-
  The program around its one region. The entry point is the encoder region followed by the graph-convolution
  lines: nothing runs before the region, so the region finds every buffer as launched; the lines after it read
  the region's result and the edge lists and write only buffers of their own. Here: the region-entry contents,
  the lines after the region (they stay within the unscoped TensorCore buffers, allocate nothing, and write no
  array the region stages), each window's block at a grid point (125 points; the node axis cut into tiles of 400
  rows, every weight window the whole array at every point), and the frame claim's post read off a frame run.
-/
import proofs.«181022_j77506979823983_1_alg».proof.Proof.Gen.KernelIdeal.Launch
import proofs.«181022_j77506979823983_1_alg».proof.Proof.Gen.KernelIdeal.Skeleton
import proofs.«181022_j77506979823983_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch. -/
abbrev tailOps : List (List (HloOp τ sig (Elt F))) := [hostOps1, hostOps1_1, hostOps1_2, hostOps1_3, hostOps1_4, hostOps1_5, hostOps1_6]

/-- Core `c`'s TensorCore buffer contents when the region is entered, as a valuation: as launched (no line runs before the region). -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
/-- The entry point reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [] tailOps (by simp only [List.Forall]) (by simp only [List.Forall]) main_chain

/-- The later lines touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
set_option maxHeartbeats 4000000 in
/-- No line of this stretch writes an array the region stages: each writes only its own result buffer. -/
theorem keeps_hostOps1 : ∀ op ∈ (hostOps1 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_1 : ∀ op ∈ (hostOps1_1 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_2 : ∀ op ∈ (hostOps1_2 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_3 : ∀ op ∈ (hostOps1_3 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_4 : ∀ op ∈ (hostOps1_4 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_5 : ∀ op ∈ (hostOps1_5 : List (HloOp τ sig (Elt F))), ∀ w, Proc.devRef .tc (Pipeline.arrRef spec0 w) ∉ op.writes := by
  intro op hop
  simp only [List.mem_cons, List.mem_nil_iff, or_false] at hop
  rcases hop with rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
set_option maxHeartbeats 4000000 in
/-- No line of this stretch writes an array the region stages: each writes only its own result buffer. -/
theorem keeps_hostOps1_6 : ∀ op ∈ (hostOps1_6 : List (HloOp τ sig (Elt F))), ∀ w, Proc.devRef .tc (Pipeline.arrRef spec0 w) ∉ op.writes := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne ((by decide : ∀ w, Pipeline.arrRef spec0 w ≠ _) w)
/-- The later lines write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl

set_option maxHeartbeats 4000000 in
/-- No later line writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 4000000 in
/-- No later line writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 4000000 in
/-- No later line writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_forall_not_mem (b := Proc.devRef .tc main_arg17) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
set_option maxHeartbeats 4000000 in
/-- No later line writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_forall_not_mem (b := Proc.devRef .tc main_arg18) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
set_option maxHeartbeats 4000000 in
/-- No later line writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) tailOps c main_arg19 = m ((c : Thread nD τ).loc main_arg19) := by
  unfold Pipeline.afterTail₀
  rw [StableHlo.after_of_forall_not_mem (b := Proc.devRef .tc main_arg19) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
set_option maxHeartbeats 4000000 in
/-- No later line writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) tailOps c main_arg20 = m ((c : Thread nD τ).loc main_arg20) := by
  unfold Pipeline.afterTail₀
  rw [StableHlo.after_of_forall_not_mem (b := Proc.devRef .tc main_arg20) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not: where it is not
    fetched the block index has not moved. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not: where it is not
    fetched the block index has not moved. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not: where it is not
    fetched the block index has not moved. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The post every frame run ends in: each array of the region at what the proof data compute, every other unscoped
    buffer as the later lines leave it. -/
abbrev Post (dats : (p : Fin 1) → (c : Dev nD) → Dat τ (Elt F) Unit ℕ (UR sig nD τ) ℕ (cfgs p) c) :=
  Pipeline.FramePost cfgs dats 0 (Pipeline.afterTail₀ cfgs dats 0 (V0 m) tailOps)

set_option maxHeartbeats 4000000 in
/-- The frame from a frame run: a staged input array ends at its entry contents, which are the launch contents; an
    argument no window stages is written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Post m dats)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).1 10).trans (((dats 0 c).arrAt_in 10 rfl _).trans ((hA c 10).trans (V_main_arg12 m c))),
      ((h c).1 11).trans (((dats 0 c).arrAt_in 11 rfl _).trans ((hA c 11).trans (V_main_arg13 m c))),
      ((h c).1 12).trans (((dats 0 c).arrAt_in 12 rfl _).trans ((hA c 12).trans (V_main_arg14 m c))),
      ((h c).1 13).trans (((dats 0 c).arrAt_in 13 rfl _).trans ((hA c 13).trans (V_main_arg15 m c))),
      ((h c).1 14).trans (((dats 0 c).arrAt_in 14 rfl _).trans ((hA c 14).trans (V_main_arg16 m c))),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c))⟩) h

end Cert.KernelIdeal.Enc

end
-- ==== Proof.KIBody.lean ====
/-
  The encoder body at one grid point, as a function of the sixteen windows' blocks. The body reads, for each of
  the two modalities, the modality's slab of every input block, runs the three layers (each a matrix product into
  a zero accumulator plus a bias row; the first two followed by the batch normalisation), adds the decoded tile to
  an accumulator that starts at zero, and stores the accumulator times 0.5 over the whole output tile. Here: the
  slabs' rectangles, what the output tile holds after the body as one term of the input blocks, and the body's
  triple: on whole staging buffers holding the input blocks it terminates, leaves them as they were, and leaves the
  output buffer at that term.
-/
import proofs.«181022_j77506979823983_1_alg».proof.Proof.KIMain

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

abbrev rx_0 : Rect S2x400x2000 := Rect.unit (s := S2x400x2000) ![0, 0, 0] S1x400x2000.size inb_S2x400x2000_S1x400x2000_0_0_0
abbrev rw1_0 : Rect S2x2000x500 := Rect.unit (s := S2x2000x500) ![0, 0, 0] S1x2000x500.size inb_S2x2000x500_S1x2000x500_0_0_0
abbrev rh_0 : Rect S2x500 := Rect.unit (s := S2x500) ![0, 0] S1x500.size inb_S2x500_S1x500_0_0
abbrev rw2_0 : Rect S2x500x128 := Rect.unit (s := S2x500x128) ![0, 0, 0] S1x500x128.size inb_S2x500x128_S1x500x128_0_0_0
abbrev rl_0 : Rect S2x128 := Rect.unit (s := S2x128) ![0, 0] S1x128.size inb_S2x128_S1x128_0_0
abbrev rwd_0 : Rect S2x128x64 := Rect.unit (s := S2x128x64) ![0, 0, 0] S1x128x64.size inb_S2x128x64_S1x128x64_0_0_0
abbrev rd_0 : Rect S2x64 := Rect.unit (s := S2x64) ![0, 0] S1x64.size inb_S2x64_S1x64_0_0
abbrev rx_1 : Rect S2x400x2000 := Rect.unit (s := S2x400x2000) ![1, 0, 0] S1x400x2000.size inb_S2x400x2000_S1x400x2000_1_0_0
abbrev rw1_1 : Rect S2x2000x500 := Rect.unit (s := S2x2000x500) ![1, 0, 0] S1x2000x500.size inb_S2x2000x500_S1x2000x500_1_0_0
abbrev rh_1 : Rect S2x500 := Rect.unit (s := S2x500) ![1, 0] S1x500.size inb_S2x500_S1x500_1_0
abbrev rw2_1 : Rect S2x500x128 := Rect.unit (s := S2x500x128) ![1, 0, 0] S1x500x128.size inb_S2x500x128_S1x500x128_1_0_0
abbrev rl_1 : Rect S2x128 := Rect.unit (s := S2x128) ![1, 0] S1x128.size inb_S2x128_S1x128_1_0
abbrev rwd_1 : Rect S2x128x64 := Rect.unit (s := S2x128x64) ![1, 0, 0] S1x128x64.size inb_S2x128x64_S1x128x64_1_0_0
abbrev rd_1 : Rect S2x64 := Rect.unit (s := S2x64) ![1, 0] S1x64.size inb_S2x64_S1x64_1_0
abbrev rout : Rect S400x64 := Rect.unit (s := S400x64) ![0, 0] S400x64.size inb_S400x64_S400x64_0_0

/-! ## What the body leaves in the output window's buffer -/

/-- The accumulator after modality 0: zero plus the modality's decoded tile. -/
def acc0 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : FVec F S400x64 .f32 :=
  k0_pay5 (k0_pay2 (F := F))
    (k0_pay4 (k0_pay3 (View.ld x0 rx_0) (View.ld x1 rw1_0) (View.ld x2 rh_0) (View.ld x5 rh_0) (View.ld x6 rh_0) (View.ld x3 rh_0) (View.ld x4 rh_0))
      (View.ld x7 rw2_0) (View.ld x8 rl_0) (View.ld x11 rl_0) (View.ld x12 rl_0) (View.ld x9 rl_0) (View.ld x10 rl_0) (View.ld x13 rwd_0) (View.ld x14 rd_0))

/-- The accumulator after modality 1. -/
def acc1 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : FVec F S400x64 .f32 :=
  k0_pay8 (acc0 x0 x1 x2 x3 x4 x5 x6 x7 x8 x9 x10 x11 x12 x13 x14)
    (k0_pay6 (View.ld x0 rx_1) (View.ld x1 rw1_1) (View.ld x2 rh_1) (View.ld x5 rh_1) (View.ld x6 rh_1) (View.ld x3 rh_1) (View.ld x4 rh_1))
    (k0_pay7 (View.ld x7 rw2_1)) (View.ld x8 rl_1) (View.ld x11 rl_1) (View.ld x12 rl_1) (View.ld x9 rl_1) (View.ld x10 rl_1) (View.ld x13 rwd_1) (View.ld x14 rd_1)

/-- The output window's staging buffer after the body: its one store, over the whole tile, of the accumulator times 0.5. -/
def out0_15 (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) : Vec F S400x64 .f32 :=
  View.canon [⟨rout, k0_pay1 (acc1 x0 x1 x2 x3 x4 x5 x6 x7 x8 x9 x10 x11 x12 x13 x14) (Scalar.ofBits .f32 0x3F000000#32)⟩]

/-- The one store covers the tile. -/
theorem cover0_15 (p0 : Vec F S400x64 .f32) (y : S400x64.Idx) :
    ∃ pc ∈ ([⟨rout, p0⟩] : List (View.Piece (Elt F) S400x64 .f32)), y ∈ pc.1.set :=
  View.cover_of_tiled [⟨rout, p0⟩] S400x64.size (by rfl) y

/-! ## The body's triple -/

set_option maxHeartbeats 4000000 in
/-- The body on whole staging memrefs, the inputs' at read contents `xW` and the output's at anything, runs to the
    continuation holding the inputs' as they were and the output's at `out0_15` of the inputs'. -/
theorem sound_kernel (c : Dev nD) (E : Set ℕ) (i : grid0.Coords) (arg1 : Memref sig .tc .vmem S2x400x2000 .f32) (harg1 : arg1.IsWhole) (arg2 : Memref sig .tc .vmem S2x2000x500 .f32) (harg2 : arg2.IsWhole) (arg3 : Memref sig .tc .vmem S2x500 .f32) (harg3 : arg3.IsWhole) (arg4 : Memref sig .tc .vmem S2x500 .f32) (harg4 : arg4.IsWhole) (arg5 : Memref sig .tc .vmem S2x500 .f32) (harg5 : arg5.IsWhole) (arg6 : Memref sig .tc .vmem S2x500 .f32) (harg6 : arg6.IsWhole) (arg7 : Memref sig .tc .vmem S2x500 .f32) (harg7 : arg7.IsWhole) (arg8 : Memref sig .tc .vmem S2x500x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128x64 .f32) (harg14 : arg14.IsWhole) (arg15 : Memref sig .tc .vmem S2x64 .f32) (harg15 : arg15.IsWhole) (arg16 : Memref sig .tc .vmem S400x64 .f32) (harg16 : arg16.IsWhole)
    (x0 : Vec F S2x400x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

end Cert.KernelIdeal.Enc

end
-- ==== Proof.KIRun.lean ====
/-
  The run of the whole entry point. The proof data of the region on each core: every input window's buffer holds the
  window's block of the argument array at every grid point (the node tile of 400 rows for the features, the whole
  array for every weight), the output window's buffer holds, after the body at point `t`, the body's term of those
  blocks, and is written back at every point. With the body's triple at every point this gives the frame run: every
  weakly fair execution terminates without a fault, the region's arrays end at what the proof data compute, and every
  other buffer as the graph-convolution lines leave it; the frame claim follows.
-/
import proofs.«181022_j77506979823983_1_alg».proof.Proof.KIBody

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1600000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- From any memory with zero counters every weakly fair execution of the entry point terminates, every array of the
    region at what the proof data compute and every other unscoped buffer as the later lines leave it. -/
theorem run_main : θ_run defs (onTc (τ := τ) (main (F := F))) (s₀ m ρ) (Post m (dats m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.Enc

end
-- ==== Proof.Spec.lean ====
/-
  The encoder's node features as ONE function of the argument arrays, on the extended reals.

  For each modality `m ∈ {0, 1}`, node `n` and feature index, three affine layers, the first two followed by an
  inference-mode batch normalisation:
    h1(m,n,h) = bn ( Σ_k x(m,n,k)·W1(m,k,h) + b1(m,h) ; m1, v1, g1, be1 at (m,h) )
    h2(m,n,l) = bn ( Σ_h h1(m,n,h)·W2(m,h,l) + b2(m,l) ; m2, v2, g2, be2 at (m,l) )
    dec(m,n,d) =     Σ_l h2(m,n,l)·Wd(m,l,d) + bd(m,d)
  with  bn(y; μ, σ², γ, β) = (y − μ)·(σ² + ε)^(-1/2)·γ + β,  ε the f32 nearest 1e-5 (the same word in both programs,
  never evaluated), and the node features are the mean over the two modalities, (dec(0,n,d) + dec(1,n,d))·(1/2).
  Also here: the two float words whose VALUES matter (2.0 as the reference's divisor, 0.5 as the kernel's factor),
  and the one law joining the two programs: (0 + (a + b)) / 2 = ((0 + a) + b)·(1/2) on every extended real.
-/
import Idealize.ShloMosaic.PureOps.Ideal
import Idealize.ShloMosaic.PureOps.Ideal.Laws
import Idealize.ShloMosaic.Lib.ValueIdx

noncomputable section

namespace Cert.Encoder

open Idealize.ShloMosaic Idealize.ShloMosaic.ValueIdx

/-- A rank-3 array of extended reals. -/
abbrev A3 (a b c : Nat) := (⟨3, ![a, b, c]⟩ : Shape).Idx → EReal
/-- A rank-2 array of extended reals. -/
abbrev A2 (a b : Nat) := (⟨2, ![a, b]⟩ : Shape).Idx → EReal

/-- The batch-norm epsilon: the f32 word both programs spell (nearest 1e-5). -/
def eps : EReal := Ideal.ofBits .f32 0x3727C5AC#32

/-- Inference-mode batch normalisation of one value. -/
def bn (y mean var gam bet : EReal) : EReal := (y - mean) * Ideal.rsqrt (var + eps) * gam + bet

/-- First layer, normalised. -/
def h1 (x : A3 2 50000 2000) (W1 : A3 2 2000 500) (b1 g1 be1 m1 v1 : A2 2 500)
    (m : Fin 2) (n : Fin 50000) (h : Fin 500) : EReal :=
  bn ((∑ k : Fin 2000, x (ix3 m n k) * W1 (ix3 m k h)) + b1 (ix2 m h))
    (m1 (ix2 m h)) (v1 (ix2 m h)) (g1 (ix2 m h)) (be1 (ix2 m h))

/-- Second layer, normalised, of any first-layer values `p`. -/
def h2 (p : Fin 2 → Fin 50000 → Fin 500 → EReal) (W2 : A3 2 500 128) (b2 g2 be2 m2 v2 : A2 2 128)
    (m : Fin 2) (n : Fin 50000) (l : Fin 128) : EReal :=
  bn ((∑ h : Fin 500, p m n h * W2 (ix3 m h l)) + b2 (ix2 m l))
    (m2 (ix2 m l)) (v2 (ix2 m l)) (g2 (ix2 m l)) (be2 (ix2 m l))

/-- The decoder layer of any second-layer values `q`. -/
def dec (q : Fin 2 → Fin 50000 → Fin 128 → EReal) (Wd : A3 2 128 64) (bd : A2 2 64)
    (m : Fin 2) (n : Fin 50000) (d : Fin 64) : EReal :=
  (∑ l : Fin 128, q m n l * Wd (ix3 m l d)) + bd (ix2 m d)

/-- One modality's decoded features from the argument arrays. -/
def decOf (x : A3 2 50000 2000) (W1 : A3 2 2000 500) (b1 g1 be1 m1 v1 : A2 2 500)
    (W2 : A3 2 500 128) (b2 g2 be2 m2 v2 : A2 2 128) (Wd : A3 2 128 64) (bd : A2 2 64)
    (m : Fin 2) (n : Fin 50000) (d : Fin 64) : EReal :=
  dec (h2 (h1 x W1 b1 g1 be1 m1 v1) W2 b2 g2 be2 m2 v2) Wd bd m n d

/-- The node features: the mean of the two modalities' decoded features. -/
def nodeFeat (x : A3 2 50000 2000) (W1 : A3 2 2000 500) (b1 g1 be1 m1 v1 : A2 2 500)
    (W2 : A3 2 500 128) (b2 g2 be2 m2 v2 : A2 2 128) (Wd : A3 2 128 64) (bd : A2 2 64) : A2 50000 64 :=
  fun j => (decOf x W1 b1 g1 be1 m1 v1 W2 b2 g2 be2 m2 v2 Wd bd 0 (j 0) (j 1)
          + decOf x W1 b1 g1 be1 m1 v1 W2 b2 g2 be2 m2 v2 Wd bd 1 (j 0) (j 1)) * ((1 / 2 : ℝ) : EReal)

/-- The word `0x40000000` denotes the real 2. -/
theorem ofBits_two : Ideal.ofBits .f32 0x40000000#32 = ((2 : ℝ) : EReal) := by
  simp [Ideal.ofBits, Ideal.ieee, -EReal.coe_mul]; norm_num

/-- The word `0x3F000000` denotes the real 1/2. -/
theorem ofBits_half : Ideal.ofBits .f32 0x3F000000#32 = ((1 / 2 : ℝ) : EReal) := by
  simp [Ideal.ofBits, Ideal.ieee, -EReal.coe_mul]; norm_num

/-- The mean as the reference takes it: zero plus the two-term sum, divided by 2. -/
theorem mean_ref (f : Fin 2 → EReal) :
    Ideal.div (Ideal.ofBits .f32 0x00000000#32 + ∑ m : Fin 2, f m) (Ideal.ofBits .f32 0x40000000#32)
      = (f 0 + f 1) * ((1 / 2 : ℝ) : EReal) := by
  rw [ofBits_two, Ideal.div_coe (by norm_num : (2 : ℝ) ≠ 0), Ideal.ofBits_zero_f32, zero_add, Fin.sum_univ_two]

/-- The mean as the kernel takes it: the two terms added to a zero accumulator in turn, times 0.5. -/
theorem mean_ker (a b : EReal) :
    ((Ideal.ofBits .f32 0x00000000#32 + a) + b) * Ideal.ofBits .f32 0x3F000000#32
      = (a + b) * ((1 / 2 : ℝ) : EReal) := by
  rw [ofBits_half, Ideal.ofBits_zero_f32, zero_add]

end Cert.Encoder

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.KIPayloads.lean ====
/-
  The encoder body's arithmetic, read one element at a time on the extended reals.

  The body's values are built from a few kinds of operation. The pointwise ones (sum, difference, product,
  reciprocal square root, a change of float format — the identity on extended reals) read their operands at the
  same index. A per-feature parameter stored as one row [1, b] is flattened, restored and repeated along the rows,
  so at (p, c) it reads the parameter at (0, c). A weight stored with a leading unit axis [1, a, b] reads (0, i, j)
  at (i, j). A matrix product into a zero accumulator is the sum over the contracted coordinate. Put together,
  each layer is a contraction plus a bias, normalised as `Cert.Encoder.bn` says.
-/
import proofs.«181022_j77506979823983_1_alg».proof.Proof.Gen.KernelIdeal.Skeleton
import proofs.«181022_j77506979823983_1_alg».proof.Proof.Spec
import proofs.«181022_j77506979823983_1_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EncValue

open Cert.KernelIdeal Cert.KernelIdeal.Gen Idealize.ShloMosaic Idealize.ShloMosaic.ValueIdx Cert.Encoder

/-! ## Layout: a per-feature row, and its normalising factor -/

/-- A row [1, b], flattened to [b], restored to [1, b] and repeated along a rows, reads at (p, c) the row's
    entry (0, c). -/
theorem row_apply {α : Type} {a b : ℕ} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) hb (ix2 p c)
      = v (ix2 (0 : Fin 1) c) :=
  (broadcastTo_1b_ab_apply _ hb p c).trans ((shapeCast_a_1a_apply _ h2 0 c).trans (shapeCast_1a_a_apply v h1 c))

/-- The normalising factor: a variance row [1, b] flattened, shifted by a constant, inverted under the square
    root, restored to [1, b] and repeated along a rows, reads at (p, c) the reciprocal square root of the
    variance at (0, c) plus the constant. -/
theorem rsqrt_row_apply {a b : ℕ} (v : (⟨2, ![1, b]⟩ : Shape).Idx → EReal) (e : EReal)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩
        (fun i => Ideal.rsqrt (shapeCast ⟨1, ![b]⟩ v h1 i + e)) h2) hb (ix2 p c)
      = Ideal.rsqrt (v (ix2 (0 : Fin 1) c) + e) :=
  (broadcastTo_1b_ab_apply _ hb p c).trans ((shapeCast_a_1a_apply _ h2 0 c).trans
    (congrArg (fun t => Ideal.rsqrt (t + e)) (shapeCast_1a_a_apply v h1 c)))

/-! ## The three matrix products -/

/-- In the first layer's product [400, 2000] × [2000, 500] the left operand's row coordinate is the result's row. -/
theorem dot1_lhs_row (j : S400x500.Idx) (q : dot_S400x2000_S2000x500_S400x500_1_0_0_1_n_n.contr.Idx) :
    (dot_S400x2000_S2000x500_S400x500_1_0_0_1_n_n.lhsIdx j q 0).val = (j 0).val := by
  unfold DotDims.lhsIdx
  rw [dif_neg (show ¬(0 : Fin S400x2000.rank) ∈ dot_S400x2000_S2000x500_S400x500_1_0_0_1_n_n.lhsBatch by decide),
    dif_pos (show (0 : Fin S400x2000.rank) ∈ dot_S400x2000_S2000x500_S400x500_1_0_0_1_n_n.lhsNonContracting by decide)]
  rfl

/-- … and the right operand's column coordinate is the result's column. -/
theorem dot1_rhs_col (j : S400x500.Idx) (q : dot_S400x2000_S2000x500_S400x500_1_0_0_1_n_n.contr.Idx) :
    (dot_S400x2000_S2000x500_S400x500_1_0_0_1_n_n.rhsIdx j q 1).val = (j 1).val := by
  unfold DotDims.rhsIdx
  rw [dif_neg (show ¬(1 : Fin S2000x500.rank) ∈ dot_S400x2000_S2000x500_S400x500_1_0_0_1_n_n.rhsBatch by decide),
    dif_pos (show (1 : Fin S2000x500.rank) ∈ dot_S400x2000_S2000x500_S400x500_1_0_0_1_n_n.rhsNonContracting by decide)]
  rfl

/-- Into a zero accumulator, the first layer's product [400, 2000] × [2000, 500] at (p, c) is the sum over the contracted coordinate of row p of the left
    operand times column c of the right. -/
theorem dot1_apply {φ₁ φ₂ : FTy} (lhs : FVec Ideal S400x2000 φ₁) (rhs : FVec Ideal S2000x500 φ₂) (p : Fin 400) (c : Fin 500) :
    matmul dot_S400x2000_S2000x500_S400x500_1_0_0_1_n_n none lhs rhs (constant (F := Ideal) S400x500 .f32 0x00000000#32) (ix2 p c)
      = ∑ k : Fin 2000, lhs (ix2 p k) * rhs (ix2 k c) := by
  refine (Ideal.matmul_constant_zero_apply dot_S400x2000_S2000x500_S400x500_1_0_0_1_n_n none lhs rhs (ix2 p c)).trans ?_
  refine LibDotSum.sum_single dot_S400x2000_S2000x500_S400x500_1_0_0_1_n_n 2000 rfl rfl lhs rhs (ix2 p c)
    (fun k => lhs (ix2 p k)) (fun k => rhs (ix2 k c)) (fun k => ?_) (fun k => ?_)
  · show lhs _ = lhs (ix2 p k)
    refine congrArg lhs (funext fun a => Fin.ext ?_)
    match a with
    | ⟨0, _⟩ => exact dot1_lhs_row _ _
    | ⟨1, _⟩ => exact LibDotSum.lhs_contr_val dot_S400x2000_S2000x500_S400x500_1_0_0_1_n_n 2000 rfl rfl rfl (ix2 p c) k
  · show rhs _ = rhs (ix2 k c)
    refine congrArg rhs (funext fun a => Fin.ext ?_)
    match a with
    | ⟨0, _⟩ => exact LibDotSum.rhs_contr_val dot_S400x2000_S2000x500_S400x500_1_0_0_1_n_n 2000 rfl rfl rfl (ix2 p c) k
    | ⟨1, _⟩ => exact dot1_rhs_col _ _

/-- In the second layer's product [400, 500] × [500, 128] the left operand's row coordinate is the result's row. -/
theorem dot2_lhs_row (j : S400x128.Idx) (q : dot_S400x500_S500x128_S400x128_1_0_0_1_n_n.contr.Idx) :
    (dot_S400x500_S500x128_S400x128_1_0_0_1_n_n.lhsIdx j q 0).val = (j 0).val := by
  unfold DotDims.lhsIdx
  rw [dif_neg (show ¬(0 : Fin S400x500.rank) ∈ dot_S400x500_S500x128_S400x128_1_0_0_1_n_n.lhsBatch by decide),
    dif_pos (show (0 : Fin S400x500.rank) ∈ dot_S400x500_S500x128_S400x128_1_0_0_1_n_n.lhsNonContracting by decide)]
  rfl

/-- … and the right operand's column coordinate is the result's column. -/
theorem dot2_rhs_col (j : S400x128.Idx) (q : dot_S400x500_S500x128_S400x128_1_0_0_1_n_n.contr.Idx) :
    (dot_S400x500_S500x128_S400x128_1_0_0_1_n_n.rhsIdx j q 1).val = (j 1).val := by
  unfold DotDims.rhsIdx
  rw [dif_neg (show ¬(1 : Fin S500x128.rank) ∈ dot_S400x500_S500x128_S400x128_1_0_0_1_n_n.rhsBatch by decide),
    dif_pos (show (1 : Fin S500x128.rank) ∈ dot_S400x500_S500x128_S400x128_1_0_0_1_n_n.rhsNonContracting by decide)]
  rfl

/-- Into a zero accumulator, the second layer's product [400, 500] × [500, 128] at (p, c) is the sum over the contracted coordinate of row p of the left
    operand times column c of the right. -/
theorem dot2_apply {φ₁ φ₂ : FTy} (lhs : FVec Ideal S400x500 φ₁) (rhs : FVec Ideal S500x128 φ₂) (p : Fin 400) (c : Fin 128) :
    matmul dot_S400x500_S500x128_S400x128_1_0_0_1_n_n none lhs rhs (constant (F := Ideal) S400x128 .f32 0x00000000#32) (ix2 p c)
      = ∑ k : Fin 500, lhs (ix2 p k) * rhs (ix2 k c) := by
  refine (Ideal.matmul_constant_zero_apply dot_S400x500_S500x128_S400x128_1_0_0_1_n_n none lhs rhs (ix2 p c)).trans ?_
  refine LibDotSum.sum_single dot_S400x500_S500x128_S400x128_1_0_0_1_n_n 500 rfl rfl lhs rhs (ix2 p c)
    (fun k => lhs (ix2 p k)) (fun k => rhs (ix2 k c)) (fun k => ?_) (fun k => ?_)
  · show lhs _ = lhs (ix2 p k)
    refine congrArg lhs (funext fun a => Fin.ext ?_)
    match a with
    | ⟨0, _⟩ => exact dot2_lhs_row _ _
    | ⟨1, _⟩ => exact LibDotSum.lhs_contr_val dot_S400x500_S500x128_S400x128_1_0_0_1_n_n 500 rfl rfl rfl (ix2 p c) k
  · show rhs _ = rhs (ix2 k c)
    refine congrArg rhs (funext fun a => Fin.ext ?_)
    match a with
    | ⟨0, _⟩ => exact LibDotSum.rhs_contr_val dot_S400x500_S500x128_S400x128_1_0_0_1_n_n 500 rfl rfl rfl (ix2 p c) k
    | ⟨1, _⟩ => exact dot2_rhs_col _ _

/-- In the decoder's product [400, 128] × [128, 64] the left operand's row coordinate is the result's row. -/
theorem dot3_lhs_row (j : S400x64.Idx) (q : dot_S400x128_S128x64_S400x64_1_0_0_1_n_n.contr.Idx) :
    (dot_S400x128_S128x64_S400x64_1_0_0_1_n_n.lhsIdx j q 0).val = (j 0).val := by
  unfold DotDims.lhsIdx
  rw [dif_neg (show ¬(0 : Fin S400x128.rank) ∈ dot_S400x128_S128x64_S400x64_1_0_0_1_n_n.lhsBatch by decide),
    dif_pos (show (0 : Fin S400x128.rank) ∈ dot_S400x128_S128x64_S400x64_1_0_0_1_n_n.lhsNonContracting by decide)]
  rfl

/-- … and the right operand's column coordinate is the result's column. -/
theorem dot3_rhs_col (j : S400x64.Idx) (q : dot_S400x128_S128x64_S400x64_1_0_0_1_n_n.contr.Idx) :
    (dot_S400x128_S128x64_S400x64_1_0_0_1_n_n.rhsIdx j q 1).val = (j 1).val := by
  unfold DotDims.rhsIdx
  rw [dif_neg (show ¬(1 : Fin S128x64.rank) ∈ dot_S400x128_S128x64_S400x64_1_0_0_1_n_n.rhsBatch by decide),
    dif_pos (show (1 : Fin S128x64.rank) ∈ dot_S400x128_S128x64_S400x64_1_0_0_1_n_n.rhsNonContracting by decide)]
  rfl

/-- Into a zero accumulator, the decoder's product [400, 128] × [128, 64] at (p, c) is the sum over the contracted coordinate of row p of the left
    operand times column c of the right. -/
theorem dot3_apply {φ₁ φ₂ : FTy} (lhs : FVec Ideal S400x128 φ₁) (rhs : FVec Ideal S128x64 φ₂) (p : Fin 400) (c : Fin 64) :
    matmul dot_S400x128_S128x64_S400x64_1_0_0_1_n_n none lhs rhs (constant (F := Ideal) S400x64 .f32 0x00000000#32) (ix2 p c)
      = ∑ k : Fin 128, lhs (ix2 p k) * rhs (ix2 k c) := by
  refine (Ideal.matmul_constant_zero_apply dot_S400x128_S128x64_S400x64_1_0_0_1_n_n none lhs rhs (ix2 p c)).trans ?_
  refine LibDotSum.sum_single dot_S400x128_S128x64_S400x64_1_0_0_1_n_n 128 rfl rfl lhs rhs (ix2 p c)
    (fun k => lhs (ix2 p k)) (fun k => rhs (ix2 k c)) (fun k => ?_) (fun k => ?_)
  · show lhs _ = lhs (ix2 p k)
    refine congrArg lhs (funext fun a => Fin.ext ?_)
    match a with
    | ⟨0, _⟩ => exact dot3_lhs_row _ _
    | ⟨1, _⟩ => exact LibDotSum.lhs_contr_val dot_S400x128_S128x64_S400x64_1_0_0_1_n_n 128 rfl rfl rfl (ix2 p c) k
  · show rhs _ = rhs (ix2 k c)
    refine congrArg rhs (funext fun a => Fin.ext ?_)
    match a with
    | ⟨0, _⟩ => exact LibDotSum.rhs_contr_val dot_S400x128_S128x64_S400x64_1_0_0_1_n_n 128 rfl rfl rfl (ix2 p c) k
    | ⟨1, _⟩ => exact dot3_rhs_col _ _

/-! ## The small payloads -/

/-- The second modality's second weight with its unit axis dropped. -/
theorem pay7_apply (v116 : Vec Ideal S1x500x128 .f32) (h : Fin 500) (l : Fin 128) :
    k0_pay7 (F := Ideal) v116 (ix2 h l) = v116 (ix3 (0 : Fin 1) h l) := by
  unfold k0_pay7
  exact shapeCast_1ab_ab_apply v116 _ h l

/-- The accumulator plus the first modality's decoded features. -/
theorem pay5_apply (v0 v78 : FVec Ideal S400x64 .f32) (j : S400x64.Idx) :
    k0_pay5 v0 v78 j = v0 j + v78 j := rfl

/-- The zero accumulator. -/
theorem pay2_apply (j : S400x64.Idx) :
    k0_pay2 (F := Ideal) j = Ideal.ofBits .f32 0x00000000#32 := rfl

/-- The accumulated features times the scalar factor. -/
theorem pay1_apply (v158 : FVec Ideal S400x64 .f32) (c : Ideal .f32) (j : S400x64.Idx) :
    k0_pay1 v158 c j = v158 j * c := rfl

/-! ## The first layer -/

/-- The first layer at (p, h): row p of the input block against column h of the first weight, plus the bias,
    normalised with the parameters at h. -/
theorem pay3_apply (v1 : Vec Ideal S1x400x2000 .f32) (v4 : Vec Ideal S1x2000x500 .f32)
    (v8 v13 v18 v26 v31 : Vec Ideal S1x500 .f32) (p : Fin 400) (h : Fin 500) :
    k0_pay3 (F := Ideal) v1 v4 v8 v13 v18 v26 v31 (ix2 p h)
      = bn ((∑ k : Fin 2000, v1 (ix3 (0 : Fin 1) p k) * v4 (ix3 (0 : Fin 1) k h)) + v8 (ix2 (0 : Fin 1) h))
          (v13 (ix2 (0 : Fin 1) h)) (v18 (ix2 (0 : Fin 1) h)) (v26 (ix2 (0 : Fin 1) h)) (v31 (ix2 (0 : Fin 1) h)) := by
  have hM := dot1_apply (φ₁ := .bf16) (φ₂ := .bf16)
    (truncf .bf16 (shapeCast S400x2000 v1 shapeCasts_S1x400x2000_S400x2000) bitsLt_bf16_f32)
    (truncf .bf16 (shapeCast S2000x500 v4 shapeCasts_S1x2000x500_S2000x500) bitsLt_bf16_f32) p h
  have hS : (∑ k : Fin 2000, (truncf .bf16 (shapeCast S400x2000 v1 shapeCasts_S1x400x2000_S400x2000) bitsLt_bf16_f32 : FVec Ideal S400x2000 .bf16) (ix2 p k)
        * (truncf .bf16 (shapeCast S2000x500 v4 shapeCasts_S1x2000x500_S2000x500) bitsLt_bf16_f32 : FVec Ideal S2000x500 .bf16) (ix2 k h))
      = ∑ k : Fin 2000, v1 (ix3 (0 : Fin 1) p k) * v4 (ix3 (0 : Fin 1) k h) :=
    Finset.sum_congr rfl fun k _ => congrArg₂ (· * ·)
      (shapeCast_1ab_ab_apply v1 shapeCasts_S1x400x2000_S400x2000 p k)
      (shapeCast_1ab_ab_apply v4 shapeCasts_S1x2000x500_S2000x500 k h)
  have h8 := row_apply (a := 400) v8 shapeCasts_S1x500_S500 shapeCasts_S500_S1x500 broadcasts_S1x500_S400x500 p h
  have h13 := row_apply (a := 400) v13 shapeCasts_S1x500_S500 shapeCasts_S500_S1x500 broadcasts_S1x500_S400x500 p h
  have h18 := rsqrt_row_apply (a := 400) v18 eps shapeCasts_S1x500_S500 shapeCasts_S500_S1x500 broadcasts_S1x500_S400x500 p h
  have h26 := row_apply (a := 400) v26 shapeCasts_S1x500_S500 shapeCasts_S500_S1x500 broadcasts_S1x500_S400x500 p h
  have h31 := row_apply (a := 400) v31 shapeCasts_S1x500_S500 shapeCasts_S500_S1x500 broadcasts_S1x500_S400x500 p h
  exact congrArg₂ (· + ·) (congrArg₂ (· * ·) (congrArg₂ (· * ·) (congrArg₂ (· - ·)
    (congrArg₂ (· + ·) (hM.trans hS) h8) h13) h18) h26) h31

/-- The second modality's first layer: the same arithmetic on the second modality's blocks. -/
theorem pay6_apply (v80 : Vec Ideal S1x400x2000 .f32) (v83 : Vec Ideal S1x2000x500 .f32)
    (v87 v92 v97 v105 v110 : Vec Ideal S1x500 .f32) (p : Fin 400) (h : Fin 500) :
    k0_pay6 (F := Ideal) v80 v83 v87 v92 v97 v105 v110 (ix2 p h)
      = bn ((∑ k : Fin 2000, v80 (ix3 (0 : Fin 1) p k) * v83 (ix3 (0 : Fin 1) k h)) + v87 (ix2 (0 : Fin 1) h)) (v92 (ix2 (0 : Fin 1) h)) (v97 (ix2 (0 : Fin 1) h)) (v105 (ix2 (0 : Fin 1) h)) (v110 (ix2 (0 : Fin 1) h)) :=
  pay3_apply v80 v83 v87 v92 v97 v105 v110 p h

/-! ## The second layer and the decoder -/

/-- The second layer as an array: the first layer's block times a weight [500, 128], plus the bias row, minus the
    mean row, times the normalising factor of the variance row, times the scale row, plus the shift row. -/
def layer2 (x : FVec Ideal S400x500 .bf16) (W : FVec Ideal S500x128 .bf16) (b m v g be : Vec Ideal S1x128 .f32) :
    FVec Ideal S400x128 .bf16 :=
  have y0 : FVec Ideal S400x128 .f32 := matmul dot_S400x500_S500x128_S400x128_1_0_0_1_n_n none x W (constant S400x128 .f32 0x00000000#32)
  have y1 : FVec Ideal S400x128 .f32 := addf y0 (broadcastTo S400x128 (shapeCast S1x128 (shapeCast S128 b shapeCasts_S1x128_S128 : FVec Ideal S128 .f32) shapeCasts_S128_S1x128 : FVec Ideal S1x128 .f32) broadcasts_S1x128_S400x128 : FVec Ideal S400x128 .f32)
  have y2 : FVec Ideal S400x128 .f32 := subf y1 (broadcastTo S400x128 (shapeCast S1x128 (shapeCast S128 m shapeCasts_S1x128_S128 : FVec Ideal S128 .f32) shapeCasts_S128_S1x128 : FVec Ideal S1x128 .f32) broadcasts_S1x128_S400x128 : FVec Ideal S400x128 .f32)
  have r : FVec Ideal S128 .f32 :=
    rsqrt (addf (shapeCast S128 v shapeCasts_S1x128_S128 : FVec Ideal S128 .f32) (broadcast S128 (Scalar.ofBits .f32 0x3727C5AC#32)))
  have y3 : FVec Ideal S400x128 .f32 :=
    mulf y2 (broadcastTo S400x128 (shapeCast S1x128 r shapeCasts_S128_S1x128 : FVec Ideal S1x128 .f32) broadcasts_S1x128_S400x128)
  have y4 : FVec Ideal S400x128 .f32 := mulf y3 (broadcastTo S400x128 (shapeCast S1x128 (shapeCast S128 g shapeCasts_S1x128_S128 : FVec Ideal S128 .f32) shapeCasts_S128_S1x128 : FVec Ideal S1x128 .f32) broadcasts_S1x128_S400x128 : FVec Ideal S400x128 .f32)
  have y5 : FVec Ideal S400x128 .f32 := addf y4 (broadcastTo S400x128 (shapeCast S1x128 (shapeCast S128 be shapeCasts_S1x128_S128 : FVec Ideal S128 .f32) shapeCasts_S128_S1x128 : FVec Ideal S1x128 .f32) broadcasts_S1x128_S400x128 : FVec Ideal S400x128 .f32)
  truncf .bf16 y5 bitsLt_bf16_f32

/-- The second layer at (p, l): row p of the first layer's block against column l of the weight, plus the bias,
    normalised with the parameters at l. -/
theorem layer2_apply (x : FVec Ideal S400x500 .bf16) (W : FVec Ideal S500x128 .bf16) (b m v g be : Vec Ideal S1x128 .f32)
    (p : Fin 400) (l : Fin 128) :
    layer2 x W b m v g be (ix2 p l)
      = bn ((∑ h : Fin 500, x (ix2 p h) * W (ix2 h l)) + b (ix2 (0 : Fin 1) l)) (m (ix2 (0 : Fin 1) l)) (v (ix2 (0 : Fin 1) l)) (g (ix2 (0 : Fin 1) l)) (be (ix2 (0 : Fin 1) l)) := by
  have hM := dot2_apply x W p l
  have hb := row_apply (a := 400) b shapeCasts_S1x128_S128 shapeCasts_S128_S1x128 broadcasts_S1x128_S400x128 p l
  have hm := row_apply (a := 400) m shapeCasts_S1x128_S128 shapeCasts_S128_S1x128 broadcasts_S1x128_S400x128 p l
  have hv := rsqrt_row_apply (a := 400) v eps shapeCasts_S1x128_S128 shapeCasts_S128_S1x128 broadcasts_S1x128_S400x128 p l
  have hg := row_apply (a := 400) g shapeCasts_S1x128_S128 shapeCasts_S128_S1x128 broadcasts_S1x128_S400x128 p l
  have hbe := row_apply (a := 400) be shapeCasts_S1x128_S128 shapeCasts_S128_S1x128 broadcasts_S1x128_S400x128 p l
  exact congrArg₂ (· + ·) (congrArg₂ (· * ·) (congrArg₂ (· * ·) (congrArg₂ (· - ·)
    (congrArg₂ (· + ·) hM hb) hm) hv) hg) hbe

/-- The decoder at (p, d): row p of a second-layer block against column d of the decoder weight (stored with a
    leading unit axis), plus the decoder bias at d. -/
theorem decoder_apply (q : FVec Ideal S400x128 .bf16) (wd : Vec Ideal S1x128x64 .f32) (bd : Vec Ideal S1x64 .f32)
    (p : Fin 400) (d : Fin 64) :
    addf (matmul dot_S400x128_S128x64_S400x64_1_0_0_1_n_n none q
          (truncf .bf16 (shapeCast S128x64 wd shapeCasts_S1x128x64_S128x64 : FVec Ideal S128x64 .f32) bitsLt_bf16_f32 : FVec Ideal S128x64 .bf16)
          (constant (F := Ideal) S400x64 .f32 0x00000000#32))
        (broadcastTo S400x64 (shapeCast S1x64 (shapeCast S64 bd shapeCasts_S1x64_S64 : FVec Ideal S64 .f32) shapeCasts_S64_S1x64 : FVec Ideal S1x64 .f32) broadcasts_S1x64_S400x64 : FVec Ideal S400x64 .f32)
        (ix2 p d)
      = (∑ l : Fin 128, q (ix2 p l) * wd (ix3 (0 : Fin 1) l d)) + bd (ix2 (0 : Fin 1) d) := by
  have hM := dot3_apply q
    (truncf .bf16 (shapeCast S128x64 wd shapeCasts_S1x128x64_S128x64 : FVec Ideal S128x64 .f32) bitsLt_bf16_f32 : FVec Ideal S128x64 .bf16) p d
  have hS : (∑ l : Fin 128, q (ix2 p l)
        * (truncf .bf16 (shapeCast S128x64 wd shapeCasts_S1x128x64_S128x64 : FVec Ideal S128x64 .f32) bitsLt_bf16_f32 : FVec Ideal S128x64 .bf16) (ix2 l d))
      = ∑ l : Fin 128, q (ix2 p l) * wd (ix3 (0 : Fin 1) l d) :=
    Finset.sum_congr rfl fun l _ => congrArg (fun t => q (ix2 p l) * t) (shapeCast_1ab_ab_apply wd shapeCasts_S1x128x64_S128x64 l d)
  have hbd := row_apply (a := 400) bd shapeCasts_S1x64_S64 shapeCasts_S64_S1x64 broadcasts_S1x64_S400x64 p d
  exact congrArg₂ (· + ·) (hM.trans hS) hbd

/-- The first modality's decoded features at (p, d): the decoder applied to the second layer, whose weight is
    stored with a leading unit axis. -/
theorem pay4_apply (v36 : FVec Ideal S400x500 .bf16) (v37 : Vec Ideal S1x500x128 .f32)
    (v41 v46 v51 v59 v64 : Vec Ideal S1x128 .f32) (v70 : Vec Ideal S1x128x64 .f32) (v74 : Vec Ideal S1x64 .f32)
    (p : Fin 400) (d : Fin 64) :
    k0_pay4 (F := Ideal) v36 v37 v41 v46 v51 v59 v64 v70 v74 (ix2 p d)
      = (∑ l : Fin 128, bn ((∑ h : Fin 500, v36 (ix2 p h) * v37 (ix3 (0 : Fin 1) h l)) + v41 (ix2 (0 : Fin 1) l)) (v46 (ix2 (0 : Fin 1) l)) (v51 (ix2 (0 : Fin 1) l)) (v59 (ix2 (0 : Fin 1) l)) (v64 (ix2 (0 : Fin 1) l))
            * v70 (ix3 (0 : Fin 1) l d)) + v74 (ix2 (0 : Fin 1) d) := by
  have hD := decoder_apply
    (layer2 v36 (truncf .bf16 (shapeCast S500x128 v37 shapeCasts_S1x500x128_S500x128 : FVec Ideal S500x128 .f32) bitsLt_bf16_f32) v41 v46 v51 v59 v64)
    v70 v74 p d
  have hL : ∀ l : Fin 128,
      layer2 v36 (truncf .bf16 (shapeCast S500x128 v37 shapeCasts_S1x500x128_S500x128 : FVec Ideal S500x128 .f32) bitsLt_bf16_f32) v41 v46 v51 v59 v64 (ix2 p l)
        = bn ((∑ h : Fin 500, v36 (ix2 p h) * v37 (ix3 (0 : Fin 1) h l)) + v41 (ix2 (0 : Fin 1) l)) (v46 (ix2 (0 : Fin 1) l)) (v51 (ix2 (0 : Fin 1) l)) (v59 (ix2 (0 : Fin 1) l)) (v64 (ix2 (0 : Fin 1) l)) := fun l =>
    (layer2_apply v36 _ v41 v46 v51 v59 v64 p l).trans
      (congrArg (fun s => bn (s + v41 (ix2 (0 : Fin 1) l)) (v46 (ix2 (0 : Fin 1) l)) (v51 (ix2 (0 : Fin 1) l)) (v59 (ix2 (0 : Fin 1) l)) (v64 (ix2 (0 : Fin 1) l)))
        (Finset.sum_congr rfl fun h _ => congrArg (fun t => v36 (ix2 p h) * t)
          (shapeCast_1ab_ab_apply v37 shapeCasts_S1x500x128_S500x128 h l)))
  exact hD.trans (congrArg (fun s => s + v74 (ix2 (0 : Fin 1) d))
    (Finset.sum_congr rfl fun l _ => congrArg (fun t => t * v70 (ix3 (0 : Fin 1) l d)) (hL l)))

/-- The accumulated features plus the second modality's decoded features at (p, d); here the second weight arrives
    with its unit axis already dropped. -/
theorem pay8_apply (v79 : FVec Ideal S400x64 .f32) (v115 : FVec Ideal S400x500 .bf16) (v117 : FVec Ideal S500x128 .f32)
    (v120 v125 v130 v138 v143 : Vec Ideal S1x128 .f32) (v149 : Vec Ideal S1x128x64 .f32) (v153 : Vec Ideal S1x64 .f32)
    (p : Fin 400) (d : Fin 64) :
    k0_pay8 (F := Ideal) v79 v115 v117 v120 v125 v130 v138 v143 v149 v153 (ix2 p d)
      = v79 (ix2 p d) + ((∑ l : Fin 128, bn ((∑ h : Fin 500, v115 (ix2 p h) * v117 (ix2 h l)) + v120 (ix2 (0 : Fin 1) l)) (v125 (ix2 (0 : Fin 1) l)) (v130 (ix2 (0 : Fin 1) l)) (v138 (ix2 (0 : Fin 1) l)) (v143 (ix2 (0 : Fin 1) l))
            * v149 (ix3 (0 : Fin 1) l d)) + v153 (ix2 (0 : Fin 1) d)) := by
  have hD := decoder_apply (layer2 v115 (truncf .bf16 v117 bitsLt_bf16_f32) v120 v125 v130 v138 v143) v149 v153 p d
  have hL : ∀ l : Fin 128, layer2 v115 (truncf .bf16 v117 bitsLt_bf16_f32) v120 v125 v130 v138 v143 (ix2 p l)
        = bn ((∑ h : Fin 500, v115 (ix2 p h) * v117 (ix2 h l)) + v120 (ix2 (0 : Fin 1) l)) (v125 (ix2 (0 : Fin 1) l)) (v130 (ix2 (0 : Fin 1) l)) (v138 (ix2 (0 : Fin 1) l)) (v143 (ix2 (0 : Fin 1) l)) := fun l =>
    layer2_apply v115 _ v120 v125 v130 v138 v143 p l
  exact congrArg (fun s => v79 (ix2 p d) + s) (hD.trans (congrArg (fun s => s + v153 (ix2 (0 : Fin 1) d))
    (Finset.sum_congr rfl fun l _ => congrArg (fun t => t * v149 (ix3 (0 : Fin 1) l d)) (hL l))))

end Cert.KernelIdeal.EncValue

end
-- ==== Proof.LibSlab.lean ====
/-
  A load through a unit-stride rectangle that takes ONE slab of the leading axis and everything of the others,
  read at an index: the slab's coordinate replaces the unit coordinate, the other coordinates are kept.
-/
import Idealize.ShloMosaic.Lib.Pipeline.FrameBody
import Idealize.ShloMosaic.Lib.ValueIdx

noncomputable section

namespace Idealize.ShloMosaic.LibSlab

open Idealize.ShloMosaic Idealize.ShloMosaic.ValueIdx

variable {Val : EltTy → Type} {e : EltTy}

/-- Slab `k` of a rank-3 array, loaded as a `[1, n1, n2]` block, read at `(u, i, j)`, is the array at `(k, i, j)`. -/
theorem ld_slab3 {n0 n1 n2 : Nat} (X : (⟨3, ![n0, n1, n2]⟩ : Shape).Idx → Val e) (off : Fin 3 → Nat)
    (inb : ∀ a, off a + (⟨3, ![1, n1, n2]⟩ : Shape).size a ≤ (⟨3, ![n0, n1, n2]⟩ : Shape).size a)
    (k : Fin n0) (h0 : off 0 = k.val) (h1 : off 1 = 0) (h2 : off 2 = 0) (u : Fin 1) (i : Fin n1) (j : Fin n2) :
    View.ld X (Rect.unit (s := ⟨3, ![n0, n1, n2]⟩) off (⟨3, ![1, n1, n2]⟩ : Shape).size inb) (ix3 u i j) = X (ix3 k i j) := by
  show X _ = X _
  congr 1
  funext a; apply Fin.ext
  match a with
  | ⟨0, _⟩ => show off 0 + 1 * u.val = k.val; omega
  | ⟨1, _⟩ => show off 1 + 1 * i.val = i.val; omega
  | ⟨2, _⟩ => show off 2 + 1 * j.val = j.val; omega

/-- Row `k` of a rank-2 array, loaded as a `[1, n1]` block, read at `(u, i)`, is the array at `(k, i)`. -/
theorem ld_slab2 {n0 n1 : Nat} (X : (⟨2, ![n0, n1]⟩ : Shape).Idx → Val e) (off : Fin 2 → Nat)
    (inb : ∀ a, off a + (⟨2, ![1, n1]⟩ : Shape).size a ≤ (⟨2, ![n0, n1]⟩ : Shape).size a)
    (k : Fin n0) (h0 : off 0 = k.val) (h1 : off 1 = 0) (u : Fin 1) (i : Fin n1) :
    View.ld X (Rect.unit (s := ⟨2, ![n0, n1]⟩) off (⟨2, ![1, n1]⟩ : Shape).size inb) (ix2 u i) = X (ix2 k i) := by
  show X _ = X _
  congr 1
  funext a; apply Fin.ext
  match a with
  | ⟨0, _⟩ => show off 0 + 1 * u.val = k.val; omega
  | ⟨1, _⟩ => show off 1 + 1 * i.val = i.val; omega

end Idealize.ShloMosaic.LibSlab

end
-- ==== Proof.KITile.lean ====
/-
  The body's output tile is the specification's node features of the tile's nodes.

  At one grid point the body sees a tile of 400 node rows of the input and the whole parameter arrays. For each of
  the two modalities it reads the modality's slab of every array and runs the three layers on the tile; read at an
  index, each layer is the specification's layer of the node that the tile's row holds. The two decoded tiles are
  added in turn to a zero accumulator and the result is scaled by 0.5: the mean of the two modalities.
-/
import proofs.«181022_j77506979823983_1_alg».proof.Proof.KIBody
import proofs.«181022_j77506979823983_1_alg».proof.Proof.KIPayloads
import proofs.«181022_j77506979823983_1_alg».proof.Proof.LibSlab
import proofs.«181022_j77506979823983_1_alg».proof.Proof.Spec

noncomputable section

namespace Cert.KernelIdeal.EncValue

open Cert.KernelIdeal Cert.KernelIdeal.Gen Cert.KernelIdeal.Enc Idealize.ShloMosaic Idealize.ShloMosaic.ValueIdx
  Idealize.ShloMosaic.LibSlab Cert.Encoder

/-- The normalisation respects equality of each of its five arguments. -/
theorem bn_congr {y y' mean mean' var var' gam gam' bet bet' : EReal} (hy : y = y') (hmean : mean = mean')
    (hvar : var = var') (hgam : gam = gam') (hbet : bet = bet') :
    bn y mean var gam bet = bn y' mean' var' gam' bet' := by
  subst hy hmean hvar hgam hbet; rfl

/-! ## The first layer, per modality -/

/-- Modality 0's first layer on the tile: at (p, h) the body's value is the specification's first layer of
    node `node p`. The slabs read the whole arrays at modality 0; the input tile's rows are the nodes' rows. -/
theorem first_0 (X : A3 2 50000 2000) (x0 : Vec Ideal S2x400x2000 .f32) (W1 : Vec Ideal S2x2000x500 .f32)
    (b1 g1 be1 m1 v1 : Vec Ideal S2x500 .f32) (node : Fin 400 → Fin 50000)
    (hx : ∀ (mm : Fin 2) (p : Fin 400) (k : Fin 2000), x0 (ix3 mm p k) = X (ix3 mm (node p) k)) (p : Fin 400) (h : Fin 500) :
    k0_pay3 (F := Ideal) (View.ld x0 rx_0) (View.ld W1 rw1_0) (View.ld b1 rh_0) (View.ld m1 rh_0) (View.ld v1 rh_0) (View.ld g1 rh_0) (View.ld be1 rh_0) (ix2 p h)
      = h1 X W1 b1 g1 be1 m1 v1 (0 : Fin 2) (node p) h :=
  (pay3_apply _ _ _ _ _ _ _ p h).trans (bn_congr
    (congrArg₂ (· + ·)
      (Finset.sum_congr rfl fun k _ => congrArg₂ (· * ·)
        ((ld_slab3 x0 ![0, 0, 0] inb_S2x400x2000_S1x400x2000_0_0_0 (0 : Fin 2) rfl rfl rfl (0 : Fin 1) p k).trans (hx (0 : Fin 2) p k))
        (ld_slab3 W1 ![0, 0, 0] inb_S2x2000x500_S1x2000x500_0_0_0 (0 : Fin 2) rfl rfl rfl (0 : Fin 1) k h))
      (ld_slab2 b1 ![0, 0] inb_S2x500_S1x500_0_0 (0 : Fin 2) rfl rfl (0 : Fin 1) h))
    (ld_slab2 m1 ![0, 0] inb_S2x500_S1x500_0_0 (0 : Fin 2) rfl rfl (0 : Fin 1) h)
    (ld_slab2 v1 ![0, 0] inb_S2x500_S1x500_0_0 (0 : Fin 2) rfl rfl (0 : Fin 1) h)
    (ld_slab2 g1 ![0, 0] inb_S2x500_S1x500_0_0 (0 : Fin 2) rfl rfl (0 : Fin 1) h)
    (ld_slab2 be1 ![0, 0] inb_S2x500_S1x500_0_0 (0 : Fin 2) rfl rfl (0 : Fin 1) h))

/-- Modality 1's first layer on the tile: at (p, h) the body's value is the specification's first layer of
    node `node p`. The slabs read the whole arrays at modality 1; the input tile's rows are the nodes' rows. -/
theorem first_1 (X : A3 2 50000 2000) (x0 : Vec Ideal S2x400x2000 .f32) (W1 : Vec Ideal S2x2000x500 .f32)
    (b1 g1 be1 m1 v1 : Vec Ideal S2x500 .f32) (node : Fin 400 → Fin 50000)
    (hx : ∀ (mm : Fin 2) (p : Fin 400) (k : Fin 2000), x0 (ix3 mm p k) = X (ix3 mm (node p) k)) (p : Fin 400) (h : Fin 500) :
    k0_pay6 (F := Ideal) (View.ld x0 rx_1) (View.ld W1 rw1_1) (View.ld b1 rh_1) (View.ld m1 rh_1) (View.ld v1 rh_1) (View.ld g1 rh_1) (View.ld be1 rh_1) (ix2 p h)
      = h1 X W1 b1 g1 be1 m1 v1 (1 : Fin 2) (node p) h :=
  (pay6_apply _ _ _ _ _ _ _ p h).trans (bn_congr
    (congrArg₂ (· + ·)
      (Finset.sum_congr rfl fun k _ => congrArg₂ (· * ·)
        ((ld_slab3 x0 ![1, 0, 0] inb_S2x400x2000_S1x400x2000_1_0_0 (1 : Fin 2) rfl rfl rfl (0 : Fin 1) p k).trans (hx (1 : Fin 2) p k))
        (ld_slab3 W1 ![1, 0, 0] inb_S2x2000x500_S1x2000x500_1_0_0 (1 : Fin 2) rfl rfl rfl (0 : Fin 1) k h))
      (ld_slab2 b1 ![1, 0] inb_S2x500_S1x500_1_0 (1 : Fin 2) rfl rfl (0 : Fin 1) h))
    (ld_slab2 m1 ![1, 0] inb_S2x500_S1x500_1_0 (1 : Fin 2) rfl rfl (0 : Fin 1) h)
    (ld_slab2 v1 ![1, 0] inb_S2x500_S1x500_1_0 (1 : Fin 2) rfl rfl (0 : Fin 1) h)
    (ld_slab2 g1 ![1, 0] inb_S2x500_S1x500_1_0 (1 : Fin 2) rfl rfl (0 : Fin 1) h)
    (ld_slab2 be1 ![1, 0] inb_S2x500_S1x500_1_0 (1 : Fin 2) rfl rfl (0 : Fin 1) h))

/-! ## The second layer, per modality -/

/-- Modality 0's second layer on the tile: at (p, l), the specification's second layer of node `node p`. -/
theorem second_0 (X : A3 2 50000 2000) (x0 : Vec Ideal S2x400x2000 .f32) (W1 : Vec Ideal S2x2000x500 .f32)
    (b1 g1 be1 m1 v1 : Vec Ideal S2x500 .f32) (W2 : Vec Ideal S2x500x128 .f32) (b2 g2 be2 m2 v2 : Vec Ideal S2x128 .f32)
    (node : Fin 400 → Fin 50000)
    (hx : ∀ (mm : Fin 2) (p : Fin 400) (k : Fin 2000), x0 (ix3 mm p k) = X (ix3 mm (node p) k)) (p : Fin 400) (l : Fin 128) :
    bn ((∑ h : Fin 500, k0_pay3 (F := Ideal) (View.ld x0 rx_0) (View.ld W1 rw1_0) (View.ld b1 rh_0) (View.ld m1 rh_0) (View.ld v1 rh_0) (View.ld g1 rh_0) (View.ld be1 rh_0) (ix2 p h) * View.ld W2 rw2_0 (ix3 (0 : Fin 1) h l)) + View.ld b2 rl_0 (ix2 (0 : Fin 1) l))
        (View.ld m2 rl_0 (ix2 (0 : Fin 1) l)) (View.ld v2 rl_0 (ix2 (0 : Fin 1) l)) (View.ld g2 rl_0 (ix2 (0 : Fin 1) l)) (View.ld be2 rl_0 (ix2 (0 : Fin 1) l))
      = h2 (h1 X W1 b1 g1 be1 m1 v1) W2 b2 g2 be2 m2 v2 (0 : Fin 2) (node p) l :=
  bn_congr
    (congrArg₂ (· + ·)
      (Finset.sum_congr rfl fun h _ => congrArg₂ (· * ·)
        (first_0 X x0 W1 b1 g1 be1 m1 v1 node hx p h)
        (ld_slab3 W2 ![0, 0, 0] inb_S2x500x128_S1x500x128_0_0_0 (0 : Fin 2) rfl rfl rfl (0 : Fin 1) h l))
      (ld_slab2 b2 ![0, 0] inb_S2x128_S1x128_0_0 (0 : Fin 2) rfl rfl (0 : Fin 1) l))
    (ld_slab2 m2 ![0, 0] inb_S2x128_S1x128_0_0 (0 : Fin 2) rfl rfl (0 : Fin 1) l)
    (ld_slab2 v2 ![0, 0] inb_S2x128_S1x128_0_0 (0 : Fin 2) rfl rfl (0 : Fin 1) l)
    (ld_slab2 g2 ![0, 0] inb_S2x128_S1x128_0_0 (0 : Fin 2) rfl rfl (0 : Fin 1) l)
    (ld_slab2 be2 ![0, 0] inb_S2x128_S1x128_0_0 (0 : Fin 2) rfl rfl (0 : Fin 1) l)

/-- Modality 1's second layer on the tile: at (p, l), the specification's second layer of node `node p`. -/
theorem second_1 (X : A3 2 50000 2000) (x0 : Vec Ideal S2x400x2000 .f32) (W1 : Vec Ideal S2x2000x500 .f32)
    (b1 g1 be1 m1 v1 : Vec Ideal S2x500 .f32) (W2 : Vec Ideal S2x500x128 .f32) (b2 g2 be2 m2 v2 : Vec Ideal S2x128 .f32)
    (node : Fin 400 → Fin 50000)
    (hx : ∀ (mm : Fin 2) (p : Fin 400) (k : Fin 2000), x0 (ix3 mm p k) = X (ix3 mm (node p) k)) (p : Fin 400) (l : Fin 128) :
    bn ((∑ h : Fin 500, k0_pay6 (F := Ideal) (View.ld x0 rx_1) (View.ld W1 rw1_1) (View.ld b1 rh_1) (View.ld m1 rh_1) (View.ld v1 rh_1) (View.ld g1 rh_1) (View.ld be1 rh_1) (ix2 p h) * k0_pay7 (F := Ideal) (View.ld W2 rw2_1) (ix2 h l)) + View.ld b2 rl_1 (ix2 (0 : Fin 1) l))
        (View.ld m2 rl_1 (ix2 (0 : Fin 1) l)) (View.ld v2 rl_1 (ix2 (0 : Fin 1) l)) (View.ld g2 rl_1 (ix2 (0 : Fin 1) l)) (View.ld be2 rl_1 (ix2 (0 : Fin 1) l))
      = h2 (h1 X W1 b1 g1 be1 m1 v1) W2 b2 g2 be2 m2 v2 (1 : Fin 2) (node p) l :=
  bn_congr
    (congrArg₂ (· + ·)
      (Finset.sum_congr rfl fun h _ => congrArg₂ (· * ·)
        (first_1 X x0 W1 b1 g1 be1 m1 v1 node hx p h)
        ((pay7_apply _ h l).trans (ld_slab3 W2 ![1, 0, 0] inb_S2x500x128_S1x500x128_1_0_0 (1 : Fin 2) rfl rfl rfl (0 : Fin 1) h l)))
      (ld_slab2 b2 ![1, 0] inb_S2x128_S1x128_1_0 (1 : Fin 2) rfl rfl (0 : Fin 1) l))
    (ld_slab2 m2 ![1, 0] inb_S2x128_S1x128_1_0 (1 : Fin 2) rfl rfl (0 : Fin 1) l)
    (ld_slab2 v2 ![1, 0] inb_S2x128_S1x128_1_0 (1 : Fin 2) rfl rfl (0 : Fin 1) l)
    (ld_slab2 g2 ![1, 0] inb_S2x128_S1x128_1_0 (1 : Fin 2) rfl rfl (0 : Fin 1) l)
    (ld_slab2 be2 ![1, 0] inb_S2x128_S1x128_1_0 (1 : Fin 2) rfl rfl (0 : Fin 1) l)

/-! ## The decoder, per modality -/

/-- Modality 0's decoder on the tile: at (p, q), the specification's decoded feature q of node `node p`. -/
theorem decoded_0 (X : A3 2 50000 2000) (x0 : Vec Ideal S2x400x2000 .f32) (W1 : Vec Ideal S2x2000x500 .f32)
    (b1 g1 be1 m1 v1 : Vec Ideal S2x500 .f32) (W2 : Vec Ideal S2x500x128 .f32) (b2 g2 be2 m2 v2 : Vec Ideal S2x128 .f32)
    (Wd : Vec Ideal S2x128x64 .f32) (bd : Vec Ideal S2x64 .f32) (node : Fin 400 → Fin 50000)
    (hx : ∀ (mm : Fin 2) (p : Fin 400) (k : Fin 2000), x0 (ix3 mm p k) = X (ix3 mm (node p) k)) (p : Fin 400) (q : Fin 64) :
    (∑ l : Fin 128, bn ((∑ h : Fin 500, k0_pay3 (F := Ideal) (View.ld x0 rx_0) (View.ld W1 rw1_0) (View.ld b1 rh_0) (View.ld m1 rh_0) (View.ld v1 rh_0) (View.ld g1 rh_0) (View.ld be1 rh_0) (ix2 p h) * View.ld W2 rw2_0 (ix3 (0 : Fin 1) h l)) + View.ld b2 rl_0 (ix2 (0 : Fin 1) l))
        (View.ld m2 rl_0 (ix2 (0 : Fin 1) l)) (View.ld v2 rl_0 (ix2 (0 : Fin 1) l)) (View.ld g2 rl_0 (ix2 (0 : Fin 1) l)) (View.ld be2 rl_0 (ix2 (0 : Fin 1) l))
          * View.ld Wd rwd_0 (ix3 (0 : Fin 1) l q)) + View.ld bd rd_0 (ix2 (0 : Fin 1) q)
      = decOf X W1 b1 g1 be1 m1 v1 W2 b2 g2 be2 m2 v2 Wd bd (0 : Fin 2) (node p) q :=
  congrArg₂ (· + ·)
    (Finset.sum_congr rfl fun l _ => congrArg₂ (· * ·)
      (second_0 X x0 W1 b1 g1 be1 m1 v1 W2 b2 g2 be2 m2 v2 node hx p l)
      (ld_slab3 Wd ![0, 0, 0] inb_S2x128x64_S1x128x64_0_0_0 (0 : Fin 2) rfl rfl rfl (0 : Fin 1) l q))
    (ld_slab2 bd ![0, 0] inb_S2x64_S1x64_0_0 (0 : Fin 2) rfl rfl (0 : Fin 1) q)

/-- Modality 1's decoder on the tile: at (p, q), the specification's decoded feature q of node `node p`. -/
theorem decoded_1 (X : A3 2 50000 2000) (x0 : Vec Ideal S2x400x2000 .f32) (W1 : Vec Ideal S2x2000x500 .f32)
    (b1 g1 be1 m1 v1 : Vec Ideal S2x500 .f32) (W2 : Vec Ideal S2x500x128 .f32) (b2 g2 be2 m2 v2 : Vec Ideal S2x128 .f32)
    (Wd : Vec Ideal S2x128x64 .f32) (bd : Vec Ideal S2x64 .f32) (node : Fin 400 → Fin 50000)
    (hx : ∀ (mm : Fin 2) (p : Fin 400) (k : Fin 2000), x0 (ix3 mm p k) = X (ix3 mm (node p) k)) (p : Fin 400) (q : Fin 64) :
    (∑ l : Fin 128, bn ((∑ h : Fin 500, k0_pay6 (F := Ideal) (View.ld x0 rx_1) (View.ld W1 rw1_1) (View.ld b1 rh_1) (View.ld m1 rh_1) (View.ld v1 rh_1) (View.ld g1 rh_1) (View.ld be1 rh_1) (ix2 p h) * k0_pay7 (F := Ideal) (View.ld W2 rw2_1) (ix2 h l)) + View.ld b2 rl_1 (ix2 (0 : Fin 1) l))
        (View.ld m2 rl_1 (ix2 (0 : Fin 1) l)) (View.ld v2 rl_1 (ix2 (0 : Fin 1) l)) (View.ld g2 rl_1 (ix2 (0 : Fin 1) l)) (View.ld be2 rl_1 (ix2 (0 : Fin 1) l))
          * View.ld Wd rwd_1 (ix3 (0 : Fin 1) l q)) + View.ld bd rd_1 (ix2 (0 : Fin 1) q)
      = decOf X W1 b1 g1 be1 m1 v1 W2 b2 g2 be2 m2 v2 Wd bd (1 : Fin 2) (node p) q :=
  congrArg₂ (· + ·)
    (Finset.sum_congr rfl fun l _ => congrArg₂ (· * ·)
      (second_1 X x0 W1 b1 g1 be1 m1 v1 W2 b2 g2 be2 m2 v2 node hx p l)
      (ld_slab3 Wd ![1, 0, 0] inb_S2x128x64_S1x128x64_1_0_0 (1 : Fin 2) rfl rfl rfl (0 : Fin 1) l q))
    (ld_slab2 bd ![1, 0] inb_S2x64_S1x64_1_0 (1 : Fin 2) rfl rfl (0 : Fin 1) q)

/-! ## The tile -/

/-- The stored tile at (p, q) is the node features of node `node p` at q: zero plus modality 0's decoded feature,
    plus modality 1's, times one half. -/
theorem tile_value (X : A3 2 50000 2000) (x0 : Vec Ideal S2x400x2000 .f32) (W1 : Vec Ideal S2x2000x500 .f32)
    (b1 g1 be1 m1 v1 : Vec Ideal S2x500 .f32) (W2 : Vec Ideal S2x500x128 .f32) (b2 g2 be2 m2 v2 : Vec Ideal S2x128 .f32)
    (Wd : Vec Ideal S2x128x64 .f32) (bd : Vec Ideal S2x64 .f32) (node : Fin 400 → Fin 50000)
    (hx : ∀ (mm : Fin 2) (p : Fin 400) (k : Fin 2000), x0 (ix3 mm p k) = X (ix3 mm (node p) k)) (p : Fin 400) (q : Fin 64) :
    k0_pay1 (F := Ideal) (acc1 x0 W1 b1 g1 be1 m1 v1 W2 b2 g2 be2 m2 v2 Wd bd) (Scalar.ofBits .f32 0x3F000000#32) (ix2 p q)
      = nodeFeat X W1 b1 g1 be1 m1 v1 W2 b2 g2 be2 m2 v2 Wd bd (ix2 (node p) q) := by
  have hA : acc0 (F := Ideal) x0 W1 b1 g1 be1 m1 v1 W2 b2 g2 be2 m2 v2 Wd bd (ix2 p q)
      = Ideal.ofBits .f32 0x00000000#32 + decOf X W1 b1 g1 be1 m1 v1 W2 b2 g2 be2 m2 v2 Wd bd (0 : Fin 2) (node p) q :=
    (pay5_apply _ _ (ix2 p q)).trans (congrArg₂ (· + ·) (pay2_apply (ix2 p q))
      ((pay4_apply _ _ _ _ _ _ _ _ _ p q).trans
        (decoded_0 X x0 W1 b1 g1 be1 m1 v1 W2 b2 g2 be2 m2 v2 Wd bd node hx p q)))
  have hB : acc1 (F := Ideal) x0 W1 b1 g1 be1 m1 v1 W2 b2 g2 be2 m2 v2 Wd bd (ix2 p q)
      = (Ideal.ofBits .f32 0x00000000#32 + decOf X W1 b1 g1 be1 m1 v1 W2 b2 g2 be2 m2 v2 Wd bd (0 : Fin 2) (node p) q)
          + decOf X W1 b1 g1 be1 m1 v1 W2 b2 g2 be2 m2 v2 Wd bd (1 : Fin 2) (node p) q :=
    (pay8_apply _ _ _ _ _ _ _ _ _ _ p q).trans (congrArg₂ (· + ·) hA
      (decoded_1 X x0 W1 b1 g1 be1 m1 v1 W2 b2 g2 be2 m2 v2 Wd bd node hx p q))
  refine (pay1_apply _ _ (ix2 p q)).trans ?_
  rw [hB]
  exact mean_ker _ _

end Cert.KernelIdeal.EncValue

end
-- ==== Proof.KIFinal.lean ====
/-
  From tiles to the array. Grid point `t` (of 125) stages rows 400·t … 400·t + 399 of the features and the whole of
  every weight array, and writes back rows 400·t … 400·t + 399 of the output. So the tile the body leaves at point
  `t`, read at (p, q), is the specification's node features at (400·t + p, q); the 125 tiles cover the 50000 rows
  (row r is in the tile of point r / 400); hence the region's output array ends as the specification's node
  features of the argument arrays, whole.
-/
import proofs.«181022_j77506979823983_1_alg».proof.Proof.KIRun
import proofs.«181022_j77506979823983_1_alg».proof.Proof.KITile
import Idealize.ShloMosaic.Lib.Pipeline.Value

set_option maxRecDepth 16384

noncomputable section

namespace Cert.KernelIdeal.EncValue

open Cert.KernelIdeal Cert.KernelIdeal.Gen Cert.KernelIdeal.Enc
open Idealize.ShloMosaic Idealize.ShloMosaic.TcCoe Idealize.ShloMosaic.ValueIdx Idealize.SL.Sem Cert.Encoder
open Idealize.ShloMosaic.Pipeline (Dat)

variable (m : (ℓ : Loc nD τ sig) → Buf (Elt Ideal) ℓ) (ρ : Dev nD → PrngReg)

/-- The node features of the argument arrays as launched on core `c`. -/
abbrev G (c : Dev nD) : S50000x64.Idx → EReal :=
  nodeFeat (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem hz : (![0, 0] : Fin 2 → Nat) = fun _ => 0 := funext fun a => by fin_cases a <;> rfl

/-- The index maps over the grid: the feature window's block index is (0, t, 0), the output's (t, 0). -/
theorem idx_facts : ∀ t : Fin cfg0.N, win0_0.index t (0 : Fin 3) = 0 ∧ win0_0.index t (1 : Fin 3) = t.val ∧ win0_0.index t (2 : Fin 3) = 0
    ∧ win0_15.index t (0 : Fin 2) = t.val ∧ win0_15.index t (1 : Fin 2) = 0 :=
  (by decide +kernel : ∀ t : Fin grid0.N, _)

/-- Every weight window's block index is zero on every axis, at every point. -/
theorem idx_w3 : ∀ t : Fin cfg0.N, (∀ a : Fin 3, win0_1.index t a = 0) ∧ (∀ a : Fin 3, win0_7.index t a = 0) ∧ (∀ a : Fin 3, win0_13.index t a = 0) :=
  (by decide +kernel : ∀ t : Fin grid0.N, _)
theorem idx_w2 : ∀ t : Fin cfg0.N, (∀ a : Fin 2, win0_2.index t a = 0) ∧ (∀ a : Fin 2, win0_3.index t a = 0) ∧ (∀ a : Fin 2, win0_4.index t a = 0) ∧ (∀ a : Fin 2, win0_5.index t a = 0) ∧ (∀ a : Fin 2, win0_6.index t a = 0) ∧ (∀ a : Fin 2, win0_8.index t a = 0) ∧ (∀ a : Fin 2, win0_9.index t a = 0) ∧ (∀ a : Fin 2, win0_10.index t a = 0) ∧ (∀ a : Fin 2, win0_11.index t a = 0) ∧ (∀ a : Fin 2, win0_12.index t a = 0) ∧ (∀ a : Fin 2, win0_14.index t a = 0) :=
  (by decide +kernel : ∀ t : Fin grid0.N, _)

/-- The node a tile row stands for. -/
def node (t : Fin cfg0.N) (p : Fin 400) : Fin 50000 :=
  ⟨400 * t.val + p.val, by have := lt_of_lt_of_eq t.isLt (show cfg0.N = 125 from N_0); have := p.isLt; omega⟩

/-- Window 1 stages the whole of its array at every point. -/
theorem iblk_1 (c : Dev nD) (t : Fin cfg0.N) : (iblk m c 1 t : Vec Ideal S2x2000x500 .f32) = m ((c : Thread nD τ).loc main_arg3) := by
  funext y
  show V m c main_arg3 (((cfg0.win 1).blk t).view.emb y) = V m c main_arg3 y
  refine congrArg (V m c main_arg3) (funext fun a => Fin.ext ?_)
  match a with
    | ⟨0, _⟩ => show win0_1.index t (0 : Fin 3) * 2 + 1 * (y 0).val = (y 0).val; rw [(idx_w3 t).1 0]; omega
    | ⟨1, _⟩ => show win0_1.index t (1 : Fin 3) * 2000 + 1 * (y 1).val = (y 1).val; rw [(idx_w3 t).1 1]; omega
    | ⟨2, _⟩ => show win0_1.index t (2 : Fin 3) * 500 + 1 * (y 2).val = (y 2).val; rw [(idx_w3 t).1 2]; omega
/-- Window 2 stages the whole of its array at every point. -/
theorem iblk_2 (c : Dev nD) (t : Fin cfg0.N) : (iblk m c 2 t : Vec Ideal S2x500 .f32) = m ((c : Thread nD τ).loc main_arg4) := by
  funext y
  show V m c main_arg4 (((cfg0.win 2).blk t).view.emb y) = V m c main_arg4 y
  refine congrArg (V m c main_arg4) (funext fun a => Fin.ext ?_)
  match a with
    | ⟨0, _⟩ => show win0_2.index t (0 : Fin 2) * 2 + 1 * (y 0).val = (y 0).val; rw [(idx_w2 t).1 0]; omega
    | ⟨1, _⟩ => show win0_2.index t (1 : Fin 2) * 500 + 1 * (y 1).val = (y 1).val; rw [(idx_w2 t).1 1]; omega
/-- Window 3 stages the whole of its array at every point. -/
theorem iblk_3 (c : Dev nD) (t : Fin cfg0.N) : (iblk m c 3 t : Vec Ideal S2x500 .f32) = m ((c : Thread nD τ).loc main_arg5) := by
  funext y
  show V m c main_arg5 (((cfg0.win 3).blk t).view.emb y) = V m c main_arg5 y
  refine congrArg (V m c main_arg5) (funext fun a => Fin.ext ?_)
  match a with
    | ⟨0, _⟩ => show win0_3.index t (0 : Fin 2) * 2 + 1 * (y 0).val = (y 0).val; rw [(idx_w2 t).2.1 0]; omega
    | ⟨1, _⟩ => show win0_3.index t (1 : Fin 2) * 500 + 1 * (y 1).val = (y 1).val; rw [(idx_w2 t).2.1 1]; omega
/-- Window 4 stages the whole of its array at every point. -/
theorem iblk_4 (c : Dev nD) (t : Fin cfg0.N) : (iblk m c 4 t : Vec Ideal S2x500 .f32) = m ((c : Thread nD τ).loc main_arg6) := by
  funext y
  show V m c main_arg6 (((cfg0.win 4).blk t).view.emb y) = V m c main_arg6 y
  refine congrArg (V m c main_arg6) (funext fun a => Fin.ext ?_)
  match a with
    | ⟨0, _⟩ => show win0_4.index t (0 : Fin 2) * 2 + 1 * (y 0).val = (y 0).val; rw [(idx_w2 t).2.2.1 0]; omega
    | ⟨1, _⟩ => show win0_4.index t (1 : Fin 2) * 500 + 1 * (y 1).val = (y 1).val; rw [(idx_w2 t).2.2.1 1]; omega
/-- Window 5 stages the whole of its array at every point. -/
theorem iblk_5 (c : Dev nD) (t : Fin cfg0.N) : (iblk m c 5 t : Vec Ideal S2x500 .f32) = m ((c : Thread nD τ).loc main_arg7) := by
  funext y
  show V m c main_arg7 (((cfg0.win 5).blk t).view.emb y) = V m c main_arg7 y
  refine congrArg (V m c main_arg7) (funext fun a => Fin.ext ?_)
  match a with
    | ⟨0, _⟩ => show win0_5.index t (0 : Fin 2) * 2 + 1 * (y 0).val = (y 0).val; rw [(idx_w2 t).2.2.2.1 0]; omega
    | ⟨1, _⟩ => show win0_5.index t (1 : Fin 2) * 500 + 1 * (y 1).val = (y 1).val; rw [(idx_w2 t).2.2.2.1 1]; omega
/-- Window 6 stages the whole of its array at every point. -/
theorem iblk_6 (c : Dev nD) (t : Fin cfg0.N) : (iblk m c 6 t : Vec Ideal S2x500 .f32) = m ((c : Thread nD τ).loc main_arg8) := by
  funext y
  show V m c main_arg8 (((cfg0.win 6).blk t).view.emb y) = V m c main_arg8 y
  refine congrArg (V m c main_arg8) (funext fun a => Fin.ext ?_)
  match a with
    | ⟨0, _⟩ => show win0_6.index t (0 : Fin 2) * 2 + 1 * (y 0).val = (y 0).val; rw [(idx_w2 t).2.2.2.2.1 0]; omega
    | ⟨1, _⟩ => show win0_6.index t (1 : Fin 2) * 500 + 1 * (y 1).val = (y 1).val; rw [(idx_w2 t).2.2.2.2.1 1]; omega
/-- Window 7 stages the whole of its array at every point. -/
theorem iblk_7 (c : Dev nD) (t : Fin cfg0.N) : (iblk m c 7 t : Vec Ideal S2x500x128 .f32) = m ((c : Thread nD τ).loc main_arg9) := by
  funext y
  show V m c main_arg9 (((cfg0.win 7).blk t).view.emb y) = V m c main_arg9 y
  refine congrArg (V m c main_arg9) (funext fun a => Fin.ext ?_)
  match a with
    | ⟨0, _⟩ => show win0_7.index t (0 : Fin 3) * 2 + 1 * (y 0).val = (y 0).val; rw [(idx_w3 t).2.1 0]; omega
    | ⟨1, _⟩ => show win0_7.index t (1 : Fin 3) * 500 + 1 * (y 1).val = (y 1).val; rw [(idx_w3 t).2.1 1]; omega
    | ⟨2, _⟩ => show win0_7.index t (2 : Fin 3) * 128 + 1 * (y 2).val = (y 2).val; rw [(idx_w3 t).2.1 2]; omega
/-- Window 8 stages the whole of its array at every point. -/
theorem iblk_8 (c : Dev nD) (t : Fin cfg0.N) : (iblk m c 8 t : Vec Ideal S2x128 .f32) = m ((c : Thread nD τ).loc main_arg10) := by
  funext y
  show V m c main_arg10 (((cfg0.win 8).blk t).view.emb y) = V m c main_arg10 y
  refine congrArg (V m c main_arg10) (funext fun a => Fin.ext ?_)
  match a with
    | ⟨0, _⟩ => show win0_8.index t (0 : Fin 2) * 2 + 1 * (y 0).val = (y 0).val; rw [(idx_w2 t).2.2.2.2.2.1 0]; omega
    | ⟨1, _⟩ => show win0_8.index t (1 : Fin 2) * 128 + 1 * (y 1).val = (y 1).val; rw [(idx_w2 t).2.2.2.2.2.1 1]; omega
/-- Window 9 stages the whole of its array at every point. -/
theorem iblk_9 (c : Dev nD) (t : Fin cfg0.N) : (iblk m c 9 t : Vec Ideal S2x128 .f32) = m ((c : Thread nD τ).loc main_arg11) := by
  funext y
  show V m c main_arg11 (((cfg0.win 9).blk t).view.emb y) = V m c main_arg11 y
  refine congrArg (V m c main_arg11) (funext fun a => Fin.ext ?_)
  match a with
    | ⟨0, _⟩ => show win0_9.index t (0 : Fin 2) * 2 + 1 * (y 0).val = (y 0).val; rw [(idx_w2 t).2.2.2.2.2.2.1 0]; omega
    | ⟨1, _⟩ => show win0_9.index t (1 : Fin 2) * 128 + 1 * (y 1).val = (y 1).val; rw [(idx_w2 t).2.2.2.2.2.2.1 1]; omega
/-- Window 10 stages the whole of its array at every point. -/
theorem iblk_10 (c : Dev nD) (t : Fin cfg0.N) : (iblk m c 10 t : Vec Ideal S2x128 .f32) = m ((c : Thread nD τ).loc main_arg12) := by
  funext y
  show V m c main_arg12 (((cfg0.win 10).blk t).view.emb y) = V m c main_arg12 y
  refine congrArg (V m c main_arg12) (funext fun a => Fin.ext ?_)
  match a with
    | ⟨0, _⟩ => show win0_10.index t (0 : Fin 2) * 2 + 1 * (y 0).val = (y 0).val; rw [(idx_w2 t).2.2.2.2.2.2.2.1 0]; omega
    | ⟨1, _⟩ => show win0_10.index t (1 : Fin 2) * 128 + 1 * (y 1).val = (y 1).val; rw [(idx_w2 t).2.2.2.2.2.2.2.1 1]; omega
/-- Window 11 stages the whole of its array at every point. -/
theorem iblk_11 (c : Dev nD) (t : Fin cfg0.N) : (iblk m c 11 t : Vec Ideal S2x128 .f32) = m ((c : Thread nD τ).loc main_arg13) := by
  funext y
  show V m c main_arg13 (((cfg0.win 11).blk t).view.emb y) = V m c main_arg13 y
  refine congrArg (V m c main_arg13) (funext fun a => Fin.ext ?_)
  match a with
    | ⟨0, _⟩ => show win0_11.index t (0 : Fin 2) * 2 + 1 * (y 0).val = (y 0).val; rw [(idx_w2 t).2.2.2.2.2.2.2.2.1 0]; omega
    | ⟨1, _⟩ => show win0_11.index t (1 : Fin 2) * 128 + 1 * (y 1).val = (y 1).val; rw [(idx_w2 t).2.2.2.2.2.2.2.2.1 1]; omega
/-- Window 12 stages the whole of its array at every point. -/
theorem iblk_12 (c : Dev nD) (t : Fin cfg0.N) : (iblk m c 12 t : Vec Ideal S2x128 .f32) = m ((c : Thread nD τ).loc main_arg14) := by
  funext y
  show V m c main_arg14 (((cfg0.win 12).blk t).view.emb y) = V m c main_arg14 y
  refine congrArg (V m c main_arg14) (funext fun a => Fin.ext ?_)
  match a with
    | ⟨0, _⟩ => show win0_12.index t (0 : Fin 2) * 2 + 1 * (y 0).val = (y 0).val; rw [(idx_w2 t).2.2.2.2.2.2.2.2.2.1 0]; omega
    | ⟨1, _⟩ => show win0_12.index t (1 : Fin 2) * 128 + 1 * (y 1).val = (y 1).val; rw [(idx_w2 t).2.2.2.2.2.2.2.2.2.1 1]; omega
/-- Window 13 stages the whole of its array at every point. -/
theorem iblk_13 (c : Dev nD) (t : Fin cfg0.N) : (iblk m c 13 t : Vec Ideal S2x128x64 .f32) = m ((c : Thread nD τ).loc main_arg15) := by
  funext y
  show V m c main_arg15 (((cfg0.win 13).blk t).view.emb y) = V m c main_arg15 y
  refine congrArg (V m c main_arg15) (funext fun a => Fin.ext ?_)
  match a with
    | ⟨0, _⟩ => show win0_13.index t (0 : Fin 3) * 2 + 1 * (y 0).val = (y 0).val; rw [(idx_w3 t).2.2 0]; omega
    | ⟨1, _⟩ => show win0_13.index t (1 : Fin 3) * 128 + 1 * (y 1).val = (y 1).val; rw [(idx_w3 t).2.2 1]; omega
    | ⟨2, _⟩ => show win0_13.index t (2 : Fin 3) * 64 + 1 * (y 2).val = (y 2).val; rw [(idx_w3 t).2.2 2]; omega
/-- Window 14 stages the whole of its array at every point. -/
theorem iblk_14 (c : Dev nD) (t : Fin cfg0.N) : (iblk m c 14 t : Vec Ideal S2x64 .f32) = m ((c : Thread nD τ).loc main_arg16) := by
  funext y
  show V m c main_arg16 (((cfg0.win 14).blk t).view.emb y) = V m c main_arg16 y
  refine congrArg (V m c main_arg16) (funext fun a => Fin.ext ?_)
  match a with
    | ⟨0, _⟩ => show win0_14.index t (0 : Fin 2) * 2 + 1 * (y 0).val = (y 0).val; rw [(idx_w2 t).2.2.2.2.2.2.2.2.2.2 0]; omega
    | ⟨1, _⟩ => show win0_14.index t (1 : Fin 2) * 64 + 1 * (y 1).val = (y 1).val; rw [(idx_w2 t).2.2.2.2.2.2.2.2.2.2 1]; omega

/-- The feature window's tile at point `t` holds rows 400·t … of the features. -/
theorem iblk_0 (c : Dev nD) (t : Fin cfg0.N) (mm : Fin 2) (p : Fin 400) (k : Fin 2000) :
    (iblk m c 0 t : Vec Ideal S2x400x2000 .f32) (ix3 mm p k) = m ((c : Thread nD τ).loc main_arg0) (ix3 mm (node t p) k) := by
  show V m c main_arg0 (((cfg0.win 0).blk t).view.emb (ix3 mm p k)) = V m c main_arg0 (ix3 mm (node t p) k)
  obtain ⟨e0, e1, e2, -, -⟩ := idx_facts t
  refine congrArg (V m c main_arg0) (funext fun a => Fin.ext ?_)
  match a with
  | ⟨0, _⟩ => show win0_0.index t (0 : Fin 3) * 2 + 1 * mm.val = mm.val; rw [e0]; omega
  | ⟨1, _⟩ => show win0_0.index t (1 : Fin 3) * 400 + 1 * p.val = 400 * t.val + p.val; rw [e1]; omega
  | ⟨2, _⟩ => show win0_0.index t (2 : Fin 3) * 2000 + 1 * k.val = k.val; rw [e2]; omega

set_option maxHeartbeats 1600000 in
/-- What point `t` writes back is tile `t` of the node features. -/
theorem flushed_eq (c : Dev nD) (t : Fin cfg0.N) :
    (dats m 0 c).flushed 15 t = ((cfg0.win 15).blk t).view.read (Elt Ideal) (G m c) := by
  show (cfg0.win 15).cut (grid0.coords t) ((dats m 0 c).after 15 t) = _
  rw [after0_15]
  unfold out0_15
  rw [View.canon_unit_zero hz]
  funext y
  obtain ⟨p, q, rfl⟩ : ∃ (p : Fin 400) (q : Fin 64), y = ix2 p q := ⟨y 0, y 1, eq_ix2 y⟩
  rw [iblk_1 m c t, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t]
  refine (tile_value (m ((c : Thread nD τ).loc main_arg0)) (iblk m c 0 t) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (node t) (iblk_0 m c t) p q).trans ?_
  show G m c (ix2 (node t p) q) = G m c (((cfg0.win 15).blk t).view.emb (ix2 p q))
  obtain ⟨-, -, -, e3, e4⟩ := idx_facts t
  refine congrArg (G m c) (funext fun a => Fin.ext ?_)
  match a with
  | ⟨0, _⟩ => show 400 * t.val + p.val = win0_15.index t (0 : Fin 2) * 400 + 1 * p.val; rw [e3]; omega
  | ⟨1, _⟩ => show q.val = win0_15.index t (1 : Fin 2) * 64 + 1 * q.val; rw [e4]; omega

/-- An index of the output array is in point `t`'s tile iff each coordinate is in the tile's range on its axis. -/
theorem mem_blk (t : Fin cfg0.N) (i : S50000x64.Idx) :
    i ∈ ((cfg0.win 15).blk t).view.set ↔ ∀ a : Fin 2, win0_15.index t a * S400x64.size a ≤ (i a).val ∧ (i a).val < win0_15.index t a * S400x64.size a + S400x64.size a := by
  show i ∈ ((View.whole main_v0).slice (win0_15.rect t)).set ↔ _
  rw [View.set_slice_whole, Rect.mem_set_unit]
  exact Iff.rfl

/-- Row `r` of the output is in the tile of point `r / 400`, which writes it back. -/
theorem cover (i : S50000x64.Idx) : ∃ t : Fin cfg0.N, (cfg0.win 15).flush t = true ∧ i ∈ ((cfg0.win 15).blk t).view.set := by
  have hi0 : (i 0).val < 50000 := (i 0).isLt
  have hi1 : (i 1).val < 64 := (i 1).isLt
  have hN : cfg0.N = 125 := N_0
  refine ⟨⟨(i 0).val / 400, by rw [hN]; omega⟩, flush0_15 _, ?_⟩
  rw [mem_blk]
  obtain ⟨-, -, -, e3, e4⟩ := idx_facts ⟨(i 0).val / 400, by rw [hN]; omega⟩
  intro a
  match a with
  | ⟨0, _⟩ =>
    show win0_15.index _ (0 : Fin 2) * 400 ≤ (i 0).val ∧ (i 0).val < win0_15.index _ (0 : Fin 2) * 400 + 400
    rw [e3]; show (i 0).val / 400 * 400 ≤ (i 0).val ∧ (i 0).val < (i 0).val / 400 * 400 + 400; omega
  | ⟨1, _⟩ =>
    show win0_15.index _ (1 : Fin 2) * 64 ≤ (i 1).val ∧ (i 1).val < win0_15.index _ (1 : Fin 2) * 64 + 64
    rw [e4]; omega

/-- The region's output array after the run: the node features of the argument arrays. -/
theorem final (c : Dev nD) : (dats m 0 c).arrAt 15 cfg0.N = G m c :=
  (dats m 0 c).arrAt_eq_of_cover 15 (G m c) (fun t _ => flushed_eq m c t) cover

end Cert.KernelIdeal.EncValue

end
-- ==== Proof.KITail.lean ====
/-
  The kernel program's result is the graph-convolution stage applied to the region's output array: the lines
  after the region read that array once, through one multiplication, and otherwise only the edge lists and the two
  layers' weights, none of which the region writes.
-/
import proofs.«181022_j77506979823983_1_alg».proof.Proof.KIRun
import Idealize.ShloMosaic.Lib.StableHlo.Run
import Idealize.ShloMosaic.PureOps.Ideal

set_option maxRecDepth 16384

noncomputable section

namespace Cert.KernelIdeal.EncValue

open Cert.KernelIdeal Cert.KernelIdeal.Gen Cert.KernelIdeal.Enc
open Idealize.ShloMosaic Idealize.ShloMosaic.TcCoe Idealize.SL.Sem Idealize.ShloMosaic.StableHlo
open Idealize.ShloMosaic.Pipeline (Dat)

variable {F : FTy → Type} [FloatOps F]

/-- The graph-convolution stage as ONE function of the node features, the two edge lists and the two layers' weights
    and biases: the out- and in-degrees by scatter-adding ones along the source and destination lists, clipped below
    at 1 and inverse-square-rooted; each layer scales the features by the source factor, gathers them along the source
    list, scatter-adds them along the destination list, scales by the destination factor, multiplies by the layer's
    weights and adds its bias; a ReLU between the two layers. Never opened: both programs apply this one function. -/
def gconv (nf : (⟨S50000x64, .f32⟩ : BufTy).Contents (Elt F)) (a1 a2 : (⟨S1600000, .i32⟩ : BufTy).Contents (Elt F))
    (a17 : (⟨S64x64, .f32⟩ : BufTy).Contents (Elt F)) (a18 : (⟨S64, .f32⟩ : BufTy).Contents (Elt F))
    (a19 : (⟨S64x16, .f32⟩ : BufTy).Contents (Elt F)) (a20 : (⟨S16, .f32⟩ : BufTy).Contents (Elt F)) :
    (⟨S50000x16, .f32⟩ : BufTy).Contents (Elt F) :=
  addf (Host.dotGeneral (F := F) (φ₂ := .f32) dot_S50000x64_S64x16_S50000x16_1_0_0_1_n_n none (mulf (Host.scatterAdd (F := F) scatter_S50000x64_S1600000x1_S1600000x64_1_0_0_1 (broadcastInDim S50000x64 ![] bcast_S_S50000x64 (constant (F := F) S_ .f32 0x00000000#32)) (broadcastInDim S1600000x1 ![0] bcast_S1600000_S1600000x1_0 a2) (Host.gather gather_S50000x64_S1600000x1_S1600000x64_1_0_n_n_0_1_164 (mulf (maximumf (addf (Host.dotGeneral (F := F) (φ₂ := .f32) dot_S50000x64_S64x64_S50000x64_1_0_0_1_n_n none (mulf (Host.scatterAdd (F := F) scatter_S50000x64_S1600000x1_S1600000x64_1_0_0_1 (broadcastInDim S50000x64 ![] bcast_S_S50000x64 (constant (F := F) S_ .f32 0x00000000#32)) (broadcastInDim S1600000x1 ![0] bcast_S1600000_S1600000x1_0 a2) (Host.gather gather_S50000x64_S1600000x1_S1600000x64_1_0_n_n_0_1_164 (mulf nf (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a1) (broadcastInDim S1600000 ![] bcast_S_S1600000 (constant (F := F) S_ .f32 0x3F800000#32)))))))) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 50000#32))) a1)))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a2) (broadcastInDim S1600000 ![] bcast_S_S1600000 (constant (F := F) S_ .f32 0x3F800000#32)))))))) a17) (broadcastInDim S50000x64 ![0, 1] bcast_S1x64_S50000x64_0_1 (broadcastInDim S1x64 ![1] bcast_S64_S1x64_1 a18))) (broadcastInDim S50000x64 ![] bcast_S_S50000x64 (constant (F := F) S_ .f32 0x00000000#32))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a1) (broadcastInDim S1600000 ![] bcast_S_S1600000 (constant (F := F) S_ .f32 0x3F800000#32)))))))) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 50000#32))) a1)))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a2) (broadcastInDim S1600000 ![] bcast_S_S1600000 (constant (F := F) S_ .f32 0x3F800000#32)))))))) a19) (broadcastInDim S50000x16 ![0, 1] bcast_S1x16_S50000x16_0_1 (broadcastInDim S1x16 ![1] bcast_S16_S1x16_1 a20))

variable (m : (ℓ : Loc nD τ sig) → Buf (Elt F) ℓ)

set_option maxRecDepth 131072 in
set_option maxHeartbeats 8000000 in
/-- What the lines after the region leave in the result buffer, for any proof data of the region. -/
theorem tail_eq (dats : (p : Fin 1) → (c : Dev nD) → Dat τ (Elt F) Unit ℕ (UR sig nD τ) ℕ (cfgs p) c) (c : Dev nD) :
    Pipeline.afterTail₀ cfgs dats 0 (V0 m) tailOps c main_v50
      = gconv ((dats 0 c).arrAt 15 cfg0.N)
          (m ((c.tc : Thread nD τ).loc main_arg1)) (m ((c.tc : Thread nD τ).loc main_arg2)) (m ((c.tc : Thread nD τ).loc main_arg17)) (m ((c.tc : Thread nD τ).loc main_arg18)) (m ((c.tc : Thread nD τ).loc main_arg19)) (m ((c.tc : Thread nD τ).loc main_arg20)) := by
  unfold Pipeline.afterTail₀
  simp only [tailOps, hostOps1, hostOps1_1, hostOps1_2, hostOps1_3, hostOps1_4, hostOps1_5, hostOps1_6, List.flatten_cons, List.flatten_nil, List.append_nil, List.cons_append, List.nil_append]
  after_results_simp
  rw [Pipeline.withArrays_arr spec0 launch0.win.arr_inj c _ _ 15]
  rw [Pipeline.withArrays_of_ne _ c (V0 m c) _ main_arg1 (by decide : ∀ w, Pipeline.arrRef spec0 w ≠ main_arg1),
    Pipeline.withArrays_of_ne _ c (V0 m c) _ main_arg2 (by decide : ∀ w, Pipeline.arrRef spec0 w ≠ main_arg2),
    Pipeline.withArrays_of_ne _ c (V0 m c) _ main_arg17 (by decide : ∀ w, Pipeline.arrRef spec0 w ≠ main_arg17),
    Pipeline.withArrays_of_ne _ c (V0 m c) _ main_arg18 (by decide : ∀ w, Pipeline.arrRef spec0 w ≠ main_arg18),
    Pipeline.withArrays_of_ne _ c (V0 m c) _ main_arg19 (by decide : ∀ w, Pipeline.arrRef spec0 w ≠ main_arg19),
    Pipeline.withArrays_of_ne _ c (V0 m c) _ main_arg20 (by decide : ∀ w, Pipeline.arrRef spec0 w ≠ main_arg20)]
  rfl

variable (ρ : Dev nD → PrngReg)

set_option maxHeartbeats 4000000 in
/-- The run of the kernel program with its result named: the result buffer ends at what the later lines compute from
    the region's arrays, and every argument array ends as launched. -/
theorem run_full : θ_run defs (onTc (τ := τ) (main (F := F))) ⟨m, fun _ => 0, ρ⟩ (fun r => ∀ c : Dev nD,
      r.2.mem ((c.tc : Thread nD τ).loc main_v50) = Pipeline.afterTail₀ cfgs (dats m) 0 (V0 m) tailOps c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).2 main_v50 (Pipeline.mem_restRefs_of main_v50 (by decide) (by decide)),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans ((((dats m) 0 c).arrAt_in 1 rfl _).trans ((A_eq m c 1).trans (V_main_arg3 m c))),
      ((h c).1 2).trans ((((dats m) 0 c).arrAt_in 2 rfl _).trans ((A_eq m c 2).trans (V_main_arg4 m c))),
      ((h c).1 3).trans ((((dats m) 0 c).arrAt_in 3 rfl _).trans ((A_eq m c 3).trans (V_main_arg5 m c))),
      ((h c).1 4).trans ((((dats m) 0 c).arrAt_in 4 rfl _).trans ((A_eq m c 4).trans (V_main_arg6 m c))),
      ((h c).1 5).trans ((((dats m) 0 c).arrAt_in 5 rfl _).trans ((A_eq m c 5).trans (V_main_arg7 m c))),
      ((h c).1 6).trans ((((dats m) 0 c).arrAt_in 6 rfl _).trans ((A_eq m c 6).trans (V_main_arg8 m c))),
      ((h c).1 7).trans ((((dats m) 0 c).arrAt_in 7 rfl _).trans ((A_eq m c 7).trans (V_main_arg9 m c))),
      ((h c).1 8).trans ((((dats m) 0 c).arrAt_in 8 rfl _).trans ((A_eq m c 8).trans (V_main_arg10 m c))),
      ((h c).1 9).trans ((((dats m) 0 c).arrAt_in 9 rfl _).trans ((A_eq m c 9).trans (V_main_arg11 m c))),
      ((h c).1 10).trans ((((dats m) 0 c).arrAt_in 10 rfl _).trans ((A_eq m c 10).trans (V_main_arg12 m c))),
      ((h c).1 11).trans ((((dats m) 0 c).arrAt_in 11 rfl _).trans ((A_eq m c 11).trans (V_main_arg13 m c))),
      ((h c).1 12).trans ((((dats m) 0 c).arrAt_in 12 rfl _).trans ((A_eq m c 12).trans (V_main_arg14 m c))),
      ((h c).1 13).trans ((((dats m) 0 c).arrAt_in 13 rfl _).trans ((A_eq m c 13).trans (V_main_arg15 m c))),
      ((h c).1 14).trans ((((dats m) 0 c).arrAt_in 14 rfl _).trans ((A_eq m c 14).trans (V_main_arg16 m c))),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c))⟩) (run_main (F := F) m ρ)

end Cert.KernelIdeal.EncValue

end
-- ==== Proof.RefNodeFeat.lean ====
/-
  The reference program computes the encoder's node features.

  The reference builds its node-features array [50000, 64] in three affine layers per modality — each of the first
  two followed by an inference-mode batch normalisation whose per-feature parameters are broadcast along the node
  axis — and then averages the two modalities: a sum over the modality axis started at zero, divided by 2.
  Read one element at a time, every stage of that chain is the corresponding stage of the specification
  `Cert.Encoder.nodeFeat`: the three contractions are the specification's three sums, each broadcast parameter is
  the parameter at (modality, feature), and the final division is the specification's mean.
-/
import proofs.«181022_j77506979823983_1_alg».proof.Proof.Gen.ReferenceIdeal.Read
import proofs.«181022_j77506979823983_1_alg».proof.Proof.Spec
import Idealize.ShloMosaic.Lib.ValueIdx
import Idealize.ShloMosaic.PureOps.Ideal.Laws

noncomputable section

open Idealize.ShloMosaic Idealize.ShloMosaic.ValueIdx Cert.ReferenceIdeal Cert.ReferenceIdeal.Read

namespace Cert.ReferenceIdeal.RefValue

/-- Two rank-2 indices are equal when their two coordinates are. -/
local macro "coords2" : tactic =>
  `(tactic| exact funext fun a => Fin.ext (by match a with | ⟨0, _⟩ => rfl | ⟨1, _⟩ => rfl))

/-- Two rank-3 indices are equal when their three coordinates are. -/
local macro "coords3" : tactic =>
  `(tactic| exact funext fun a => Fin.ext (by match a with | ⟨0, _⟩ => rfl | ⟨1, _⟩ => rfl | ⟨2, _⟩ => rfl))

/-- The first layer. At (m, n, h) the reference's normalised first layer is the contraction of row (m, n) of the
    input with column (m, h) of the first weight, plus the bias, normalised with the parameters at (m, h). -/
theorem layer1_ref (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal))
    (m : Fin 2) (n : Fin 50000) (h : Fin 500) :
    val_main_v18 (F := Ideal) x0 x3 x4 x5 x6 x7 x8 (ix3 m n h) = Cert.Encoder.h1 x0 x3 x4 x5 x6 x7 x8 m n h := by
  have eL : ∀ k : Fin 2000, lidx_main_v0 (ix3 m n h) k = ix3 m n k := fun k => by coords3
  have eR : ∀ k : Fin 2000, ridx_main_v0 (ix3 m n h) k = ix3 m k h := fun k => by coords3
  have e4 : idx_main_v1 (idx_main_v2 (ix3 m n h)) = ix2 m h := by coords2
  have e7 : idx_main_v4 (idx_main_v5 (ix3 m n h)) = ix2 m h := by coords2
  have e8 : idx_main_v7 (idx_main_v11 (ix3 m n h)) = ix2 m h := by coords2
  have e5 : idx_main_v13 (idx_main_v14 (ix3 m n h)) = ix2 m h := by coords2
  have e6 : idx_main_v16 (idx_main_v17 (ix3 m n h)) = ix2 m h := by coords2
  rw [val_main_v18_apply, val_main_v15_apply, val_main_v12_apply, val_main_v6_apply, val_main_v3_apply,
    val_main_v0_apply, val_main_v2_apply, val_main_v1_apply, val_main_v5_apply, val_main_v4_apply,
    val_main_v11_apply, val_main_v10_apply, val_main_v9_apply, val_main_v7_apply, val_main_v8_apply,
    val_main_cst_apply, val_main_v14_apply, val_main_v13_apply, val_main_v17_apply, val_main_v16_apply]
  simp only [eL, eR, e4, e7, e8, e5, e6, Ideal.addf_def, Ideal.subf_def, Ideal.mulf_def,
    Ideal.hostUnary_rsqrt_def, Ideal.ofBits_def, Cert.Encoder.h1, Cert.Encoder.bn, Cert.Encoder.eps]

/-- The second layer. At (m, n, l) the reference's normalised second layer is the contraction of the first
    layer's row (m, n) with column (m, l) of the second weight, plus the bias, normalised at (m, l). -/
theorem layer2_ref (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal))
    (x9 : (⟨S2x500x128, .f32⟩ : BufTy).Contents (Elt Ideal)) (x10 x11 x12 x13 x14 : (⟨S2x128, .f32⟩ : BufTy).Contents (Elt Ideal))
    (m : Fin 2) (n : Fin 50000) (l : Fin 128) :
    val_main_v37 (F := Ideal) x0 x3 x4 x5 x6 x7 x8 x9 x10 x11 x12 x13 x14 (ix3 m n l)
      = Cert.Encoder.h2 (Cert.Encoder.h1 x0 x3 x4 x5 x6 x7 x8) x9 x10 x11 x12 x13 x14 m n l := by
  have eL : ∀ k : Fin 500, lidx_main_v19 (ix3 m n l) k = ix3 m n k := fun k => by coords3
  have eR : ∀ k : Fin 500, ridx_main_v19 (ix3 m n l) k = ix3 m k l := fun k => by coords3
  have e10 : idx_main_v20 (idx_main_v21 (ix3 m n l)) = ix2 m l := by coords2
  have e13 : idx_main_v23 (idx_main_v24 (ix3 m n l)) = ix2 m l := by coords2
  have e14 : idx_main_v26 (idx_main_v30 (ix3 m n l)) = ix2 m l := by coords2
  have e11 : idx_main_v32 (idx_main_v33 (ix3 m n l)) = ix2 m l := by coords2
  have e12 : idx_main_v35 (idx_main_v36 (ix3 m n l)) = ix2 m l := by coords2
  rw [val_main_v37_apply, val_main_v34_apply, val_main_v31_apply, val_main_v25_apply, val_main_v22_apply,
    val_main_v19_apply, val_main_v21_apply, val_main_v20_apply, val_main_v24_apply, val_main_v23_apply,
    val_main_v30_apply, val_main_v29_apply, val_main_v28_apply, val_main_v26_apply, val_main_v27_apply,
    val_main_cst_0_apply, val_main_v33_apply, val_main_v32_apply, val_main_v36_apply, val_main_v35_apply]
  simp only [eL, eR, e10, e13, e14, e11, e12, layer1_ref, Ideal.addf_def, Ideal.subf_def, Ideal.mulf_def,
    Ideal.hostUnary_rsqrt_def, Ideal.ofBits_def, Cert.Encoder.h2, Cert.Encoder.bn, Cert.Encoder.eps]

/-- The decoder layer. At (m, n, d) the reference's decoded features are the contraction of the second layer's
    row (m, n) with column (m, d) of the decoder weight, plus the decoder bias at (m, d). -/
theorem decoder_ref (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal))
    (x9 : (⟨S2x500x128, .f32⟩ : BufTy).Contents (Elt Ideal)) (x10 x11 x12 x13 x14 : (⟨S2x128, .f32⟩ : BufTy).Contents (Elt Ideal))
    (x15 : (⟨S2x128x64, .f32⟩ : BufTy).Contents (Elt Ideal)) (x16 : (⟨S2x64, .f32⟩ : BufTy).Contents (Elt Ideal))
    (m : Fin 2) (n : Fin 50000) (d : Fin 64) :
    val_main_v41 (F := Ideal) x0 x3 x4 x5 x6 x7 x8 x9 x10 x11 x12 x13 x14 x15 x16 (ix3 m n d)
      = Cert.Encoder.decOf x0 x3 x4 x5 x6 x7 x8 x9 x10 x11 x12 x13 x14 x15 x16 m n d := by
  have eL : ∀ k : Fin 128, lidx_main_v38 (ix3 m n d) k = ix3 m n k := fun k => by coords3
  have eR : ∀ k : Fin 128, ridx_main_v38 (ix3 m n d) k = ix3 m k d := fun k => by coords3
  have e16 : idx_main_v39 (idx_main_v40 (ix3 m n d)) = ix2 m d := by coords2
  rw [val_main_v41_apply, val_main_v38_apply, val_main_v40_apply, val_main_v39_apply]
  simp only [eL, eR, e16, layer2_ref, Ideal.addf_def, Cert.Encoder.decOf, Cert.Encoder.dec]

/-- The reference's node-features array is the specification's: the sum over the two modalities, started at
    zero and divided by 2, is the mean of the two decoded features. -/
theorem nodeFeat_ref (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal))
    (x9 : (⟨S2x500x128, .f32⟩ : BufTy).Contents (Elt Ideal)) (x10 x11 x12 x13 x14 : (⟨S2x128, .f32⟩ : BufTy).Contents (Elt Ideal))
    (x15 : (⟨S2x128x64, .f32⟩ : BufTy).Contents (Elt Ideal)) (x16 : (⟨S2x64, .f32⟩ : BufTy).Contents (Elt Ideal)) :
    Cert.ReferenceIdeal.Read.val_main_v44 (F := Ideal) x0 x3 x4 x5 x6 x7 x8 x9 x10 x11 x12 x13 x14 x15 x16
      = Cert.Encoder.nodeFeat x0 x3 x4 x5 x6 x7 x8 x9 x10 x11 x12 x13 x14 x15 x16 := by
  funext j
  obtain ⟨n, d, rfl⟩ : ∃ (n : Fin 50000) (d : Fin 64), j = ix2 n d := ⟨j 0, j 1, eq_ix2 j⟩
  have eM : ∀ k : Fin 2, idx_main_v42 (ix2 n d) k = ix3 k n d := fun k => by coords3
  rw [val_main_v44_apply, val_main_v42_apply, val_main_v43_apply, val_main_cst_1_apply, val_main_cst_2_apply]
  simp only [eM, decoder_ref, Ideal.hostDivf_def, Ideal.ofBits_def]
  rw [Cert.Encoder.mean_ref (fun m => Cert.Encoder.decOf x0 x3 x4 x5 x6 x7 x8 x9 x10 x11 x12 x13 x14 x15 x16 m n d)]
  rfl

end Cert.ReferenceIdeal.RefValue

end
-- ==== Proof.RefTail.lean ====
/-
  The reference's result is the graph-convolution stage applied to its node features: the stage's lines read the
  node features once, through one multiplication, so the composed term of the run factors through them.
-/
import proofs.«181022_j77506979823983_1_alg».proof.Proof.Gen.ReferenceIdeal.Read

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The graph-convolution stage as ONE function of the node features, the two edge lists and the two layers' weights
    and biases: the out- and in-degrees by scatter-adding ones along the source and destination lists, clipped below
    at 1 and inverse-square-rooted; each layer scales the features by the source factor, gathers them along the source
    list, scatter-adds them along the destination list, scales by the destination factor, multiplies by the layer's
    weights and adds its bias; a ReLU between the two layers. Never opened: both programs apply this one function. -/
def gconv (nf : (⟨S50000x64, .f32⟩ : BufTy).Contents (Elt F)) (a1 a2 : (⟨S1600000, .i32⟩ : BufTy).Contents (Elt F))
    (a17 : (⟨S64x64, .f32⟩ : BufTy).Contents (Elt F)) (a18 : (⟨S64, .f32⟩ : BufTy).Contents (Elt F))
    (a19 : (⟨S64x16, .f32⟩ : BufTy).Contents (Elt F)) (a20 : (⟨S16, .f32⟩ : BufTy).Contents (Elt F)) :
    (⟨S50000x16, .f32⟩ : BufTy).Contents (Elt F) :=
  addf (Host.dotGeneral (F := F) (φ₂ := .f32) dot_S50000x64_S64x16_S50000x16_1_0_0_1_n_n none (mulf (Host.scatterAdd (F := F) scatter_S50000x64_S1600000x1_S1600000x64_1_0_0_1 (broadcastInDim S50000x64 ![] bcast_S_S50000x64 (constant (F := F) S_ .f32 0x00000000#32)) (broadcastInDim S1600000x1 ![0] bcast_S1600000_S1600000x1_0 a2) (Host.gather gather_S50000x64_S1600000x1_S1600000x64_1_0_n_n_0_1_164 (mulf (maximumf (addf (Host.dotGeneral (F := F) (φ₂ := .f32) dot_S50000x64_S64x64_S50000x64_1_0_0_1_n_n none (mulf (Host.scatterAdd (F := F) scatter_S50000x64_S1600000x1_S1600000x64_1_0_0_1 (broadcastInDim S50000x64 ![] bcast_S_S50000x64 (constant (F := F) S_ .f32 0x00000000#32)) (broadcastInDim S1600000x1 ![0] bcast_S1600000_S1600000x1_0 a2) (Host.gather gather_S50000x64_S1600000x1_S1600000x64_1_0_n_n_0_1_164 (mulf nf (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a1) (broadcastInDim S1600000 ![] bcast_S_S1600000 (constant (F := F) S_ .f32 0x3F800000#32)))))))) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 50000#32))) a1)))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a2) (broadcastInDim S1600000 ![] bcast_S_S1600000 (constant (F := F) S_ .f32 0x3F800000#32)))))))) a17) (broadcastInDim S50000x64 ![0, 1] bcast_S1x64_S50000x64_0_1 (broadcastInDim S1x64 ![1] bcast_S64_S1x64_1 a18))) (broadcastInDim S50000x64 ![] bcast_S_S50000x64 (constant (F := F) S_ .f32 0x00000000#32))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a1) (broadcastInDim S1600000 ![] bcast_S_S1600000 (constant (F := F) S_ .f32 0x3F800000#32)))))))) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 50000#32))) a1)))) (broadcastInDim S50000x64 ![0, 1] bcast_S50000x1_S50000x64_0_1 (broadcastInDim S50000x1 ![0] bcast_S50000_S50000x1_0 (Host.rsqrt (F := F) (maximumf (broadcastInDim S50000 ![] bcast_S_S50000 (id (constant (F := F) S_ .f32 0x3F800000#32))) (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 a2) (broadcastInDim S1600000 ![] bcast_S_S1600000 (constant (F := F) S_ .f32 0x3F800000#32)))))))) a19) (broadcastInDim S50000x16 ![0, 1] bcast_S1x16_S50000x16_0_1 (broadcastInDim S1x16 ![1] bcast_S16_S1x16_1 a20))

set_option maxRecDepth 131072 in
set_option maxHeartbeats 4000000 in
/-- The run's result term is the stage applied to the node-features stage of the run. -/
theorem res_eq (m : (ℓ : Loc nD τ sig) → Buf (Elt F) ℓ) (c : Dev nD) :
    Cert.ReferenceIdeal.Value.res_main_v94 (F := F) m c
      = gconv (Cert.ReferenceIdeal.Read.val_main_v44 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
          (m ((c.tc : Thread nD τ).loc main_arg1)) (m ((c.tc : Thread nD τ).loc main_arg2)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_main_v94
  rfl

end Cert.ReferenceIdeal.RefValue

end
-- ==== Proof.Cross.lean ====
/-
  The graph-convolution stage is spelt once in each program's vocabulary of shapes and dimension records; the two
  spellings are the same function, record by record.
-/
import proofs.«181022_j77506979823983_1_alg».proof.Proof.RefTail
import proofs.«181022_j77506979823983_1_alg».proof.Proof.KITail

set_option maxRecDepth 131072

noncomputable section

namespace Cert.Encoder

open Idealize.ShloMosaic

variable {F : FTy → Type} [FloatOps F]

set_option maxHeartbeats 8000000 in
/-- Both programs' graph-convolution stages are one function of the node features, the edge lists and the weights. -/
theorem gconv_same (nf : (⟨Cert.ReferenceIdeal.S50000x64, .f32⟩ : BufTy).Contents (Elt F))
    (a1 a2 : (⟨Cert.ReferenceIdeal.S1600000, .i32⟩ : BufTy).Contents (Elt F))
    (a17 : (⟨Cert.ReferenceIdeal.S64x64, .f32⟩ : BufTy).Contents (Elt F)) (a18 : (⟨Cert.ReferenceIdeal.S64, .f32⟩ : BufTy).Contents (Elt F))
    (a19 : (⟨Cert.ReferenceIdeal.S64x16, .f32⟩ : BufTy).Contents (Elt F)) (a20 : (⟨Cert.ReferenceIdeal.S16, .f32⟩ : BufTy).Contents (Elt F)) :
    Cert.ReferenceIdeal.RefValue.gconv nf a1 a2 a17 a18 a19 a20 = Cert.KernelIdeal.EncValue.gconv nf a1 a2 a17 a18 a19 a20 := rfl

end Cert.Encoder

end
-- ==== Proof.lean ====
/-
  The claim. Both programs compute a two-modality encoder (three affine layers per modality, the first two followed
  by an inference-mode batch normalisation, the decoded features averaged over the modalities) followed by two
  degree-normalised graph-convolution layers over an edge list.

  The kernel program runs the encoder as one region over 125 tiles of 400 nodes and the graph convolution as plain
  array operations after it; the reference runs everything as plain array operations. At the extended reals the
  region's output array is the specification's node features (the bf16 roundings are the identity there, each
  matrix product into a zero accumulator is the plain sum, the accumulator over the two modalities times 0.5 is the
  reference's two-term sum divided by 2), and the reference's node-features stage is the same function; the graph
  convolution is literally the same function of the node features, the edge lists and the weights in both, so the
  results agree. No finiteness of the inputs is used.

  The frames: the region's body terminates without a fault at every grid point on any contents, the pipeline
  restores every staged input array, and the lines after the region write only their own result buffers; the
  reference's frame is its run with the result dropped. The idealisation ledger is empty.
-/
import proofs.«181022_j77506979823983_1_alg».proof.Defs
import proofs.«181022_j77506979823983_1_alg».proof.Proof.Gen.Kernel
import proofs.«181022_j77506979823983_1_alg».proof.Proof.Gen.KernelIdeal
import proofs.«181022_j77506979823983_1_alg».proof.Proof.Gen.ReferenceIdeal
import proofs.«181022_j77506979823983_1_alg».proof.Proof.Gen.Pre_finite_inputs
import proofs.«181022_j77506979823983_1_alg».proof.Proof.Gen.ReferenceIdeal.Run
import proofs.«181022_j77506979823983_1_alg».proof.Proof.Gen.ReferenceIdeal.Read
import proofs.«181022_j77506979823983_1_alg».proof.Proof.KRun
import proofs.«181022_j77506979823983_1_alg».proof.Proof.KIRun
import proofs.«181022_j77506979823983_1_alg».proof.Proof.KIFinal
import proofs.«181022_j77506979823983_1_alg».proof.Proof.KITail
import proofs.«181022_j77506979823983_1_alg».proof.Proof.RefNodeFeat
import proofs.«181022_j77506979823983_1_alg».proof.Proof.RefTail
import proofs.«181022_j77506979823983_1_alg».proof.Proof.Cross
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k [Cert.Kernel.Facts] [Cert.Pre_finite_inputs.Facts] : Cert.frame_Kernel := fun m ρ _ => Cert.Kernel.Enc.frame m ρ

/-- So does the idealised kernel program. -/
theorem frame_ki [Cert.KernelIdeal.Facts] [Cert.Pre_finite_inputs.Facts] : Cert.frame_KernelIdeal := fun m ρ _ => Cert.KernelIdeal.Enc.frame m ρ

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- From memories agreeing on the arguments both idealised programs end with the graph convolution of the
    specification's node features. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.EncValue.gconv (F := Ideal) (Cert.KernelIdeal.EncValue.G m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun _ h c => ⟨(h c).1.trans ?_, (h c).2⟩) (Cert.KernelIdeal.EncValue.run_full (F := Ideal) m ρ)
    rw [Cert.KernelIdeal.EncValue.tail_eq (F := Ideal) m _ c, Cert.KernelIdeal.EncValue.final m c]
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.RefValue.res_eq (F := Ideal), Cert.ReferenceIdeal.RefValue.nodeFeat_ref, e0, e1, e2, e3, e4, e5, e6, e7, e8, e9, e10, e11, e12, e13, e14, e15, e16, e17, e18, e19, e20]
    exact Cert.Encoder.gconv_same (F := Ideal) _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
